-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S250000x16 : Shape := ⟨2, ![250000, 16]⟩
abbrev S250000 : Shape := ⟨1, ![250000]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S250000x16 : S_.BroadcastsInDim S250000x16 (![] : Fin 0 → Fin S250000x16.rank)
  reducesTo_S250000x16_S_d0_1 : S250000x16.ReducesTo [0, 1] S_
  bcast_S_S250000 : S_.BroadcastsInDim S250000 (![] : Fin 0 → Fin S250000.rank)
  reducesTo_S250000_S_d0 : S250000.ReducesTo [0] S_
  bcast_S_S272x256 : S_.BroadcastsInDim S272x256 (![] : Fin 0 → Fin S272x256.rank)
  reducesTo_S272x256_S_d0_1 : S272x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S256x256 .f32) (main_arg14 : FVec F S256 .f32) (main_arg15 : FVec F S256x128 .f32) (main_arg16 : FVec F S128 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x128 .f32 := Host.absf main_arg15
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg16 main_v63 main_v67

def fn_part2 {F : FTy → Type} [FloatOps F] (main_arg9 : FVec F S256x128 .f32) (main_arg10 : FVec F S128 .f32) (main_arg11 : FVec F S272x256 .f32) (main_arg12 : FVec F S256 .f32) (main_arg13 : FVec F S256x256 .f32) (main_arg14 : FVec F S256 .f32) (main_arg15 : FVec F S256x128 .f32) (main_arg16 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S272x256 .f32 := Host.absf main_arg11
  let main_cst_16 : FVec F S_ .f32 := constant S_ .f32 0x7F800000#32
  let main_v45 : FVec F S272x256 .f32 := broadcastInDim S272x256 ![] bcast_S_S272x256 main_cst_16
  let main_v46 : IVec S272x256 1 := cmpf .olt main_v44 main_v45
  let main_c_17 : IVec S_ 1 := constantI S_ 1 1#1
  let main_v47 : IVec S_ 1 := (fun x v => Host.reduce IntOp.andi x v reducesTo_S272x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_v48 main_v49 main_v50

def fn_part1 {F : FTy → Type} [FloatOps F] (main_arg6 : FVec F S256 .f32) (main_arg7 : FVec F S256x256 .f32) (main_arg8 : FVec F S256 .f32) (main_arg9 : FVec F S256x128 .f32) (main_arg10 : FVec F S128 .f32) (main_arg11 : FVec F S272x256 .f32) (main_arg12 : FVec F S256 .f32) (main_arg13 : FVec F S256x256 .f32) (main_arg14 : FVec F S256 .f32) (main_arg15 : FVec F S256x128 .f32) (main_arg16 : FVec F S128 .f32) (main_v13 : IVec S_ 1) (main_v16 : IVec S272x256 1) : IVec S_ 1 :=
  let main_c_5 : IVec S_ 1 := constantI S_ 1 1#1
  let main_v17 : IVec S_ 1 := (fun x v => Host.reduce IntOp.andi x v reducesTo_S272x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : FVec F S250000x16 .f32) (main_arg2 : FVec F S250000 .f32) (main_arg3 : IVec S250000 32) (main_arg4 : IVec S250000 32) (main_arg5 : FVec F S272x256 .f32) (main_arg6 : FVec F S256 .f32) (main_arg7 : FVec F S256x256 .f32) (main_arg8 : FVec F S256 .f32) (main_arg9 : FVec F S256x128 .f32) (main_arg10 : FVec F S128 .f32) (main_arg11 : FVec F S272x256 .f32) (main_arg12 : FVec F S256 .f32) (main_arg13 : FVec F S256x256 .f32) (main_arg14 : FVec F S256 .f32) (main_arg15 : FVec F S256x128 .f32) (main_arg16 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S250000x16 .f32 := Host.absf main_arg1
  let main_cst_0 : FVec F S_ .f32 := constant S_ .f32 0x7F800000#32
  let main_v5 : FVec F S250000x16 .f32 := broadcastInDim S250000x16 ![] bcast_S_S250000x16 main_cst_0
  let main_v6 : IVec S250000x16 1 := cmpf .olt main_v4 main_v5
  let main_c_1 : IVec S_ 1 := constantI S_ 1 1#1
  let main_v7 : IVec S_ 1 := (fun x v => Host.reduce IntOp.andi x v reducesTo_S250000x16_S_d0_1 h_S_) main_v6 main_c_1
  let main_v8 : IVec S_ 1 := andi main_v3 main_v7
  let main_v9 : FVec F S250000 .f32 := Host.absf main_arg2
  let main_cst_2 : FVec F S_ .f32 := constant S_ .f32 0x7F800000#32
  let main_v10 : FVec F S250000 .f32 := broadcastInDim S250000 ![] bcast_S_S250000 main_cst_2
  let main_v11 : IVec S250000 1 := cmpf .olt main_v9 main_v10
  let main_c_3 : IVec S_ 1 := constantI S_ 1 1#1
  let main_v12 : IVec S_ 1 := (fun x v => Host.reduce IntOp.andi x v reducesTo_S250000_S_d0 h_S_) main_v11 main_c_3
  let main_v13 : IVec S_ 1 := andi main_v8 main_v12
  let main_v14 : FVec F S272x256 .f32 := Host.absf main_arg5
  let main_cst_4 : FVec F S_ .f32 := constant S_ .f32 0x7F800000#32
  let main_v15 : FVec F S272x256 .f32 := broadcastInDim S272x256 ![] bcast_S_S272x256 main_cst_4
  let main_v16 : IVec S272x256 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S250000x16 : Shape := ⟨2, ![250000, 16]⟩
abbrev S250000 : Shape := ⟨1, ![250000]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S250000x1 : Shape := ⟨2, ![250000, 1]⟩
abbrev S250000x128 : Shape := ⟨2, ![250000, 128]⟩
abbrev S250000x272 : Shape := ⟨2, ![250000, 272]⟩
abbrev S2000x272 : Shape := ⟨2, ![2000, 272]⟩
abbrev S2000x128 : Shape := ⟨2, ![2000, 128]⟩
abbrev S2000x256 : Shape := ⟨2, ![2000, 256]⟩
abbrev S1x256 : Shape := ⟨2, ![1, 256]⟩
abbrev S1x128 : Shape := ⟨2, ![1, 128]⟩

abbrev nBuf : Space → Nat
  | .hbm => 73
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S250000x16, .f32⟩
  | .hbm, ⟨2, _⟩ => ⟨S250000, .f32⟩
  | .hbm, ⟨3, _⟩ => ⟨S250000, .i32⟩
  | .hbm, ⟨4, _⟩ => ⟨S250000, .i32⟩
  | .hbm, ⟨5, _⟩ => ⟨S272x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S272x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S_, .i32⟩
  | .hbm, ⟨18, _⟩ => ⟨S250000, .i32⟩
  | .hbm, ⟨19, _⟩ => ⟨S250000, .i1⟩
  | .hbm, ⟨20, _⟩ => ⟨S_, .i32⟩
  | .hbm, ⟨21, _⟩ => ⟨S250000, .i32⟩
  | .hbm, ⟨22, _⟩ => ⟨S250000, .i32⟩
  | .hbm, ⟨23, _⟩ => ⟨S250000, .i32⟩
  | .hbm, ⟨24, _⟩ => ⟨S250000x1, .i32⟩
  | .hbm, ⟨25, _⟩ => ⟨S250000x128, .f32⟩
  | .hbm, ⟨26, _⟩ => ⟨S_, .i32⟩
  | .hbm, ⟨27, _⟩ => ⟨S250000, .i32⟩
  | .hbm, ⟨28, _⟩ => ⟨S250000, .i1⟩
  | .hbm, ⟨29, _⟩ => ⟨S_, .i32⟩
  | .hbm, ⟨30, _⟩ => ⟨S250000, .i32⟩
  | .hbm, ⟨31, _⟩ => ⟨S250000, .i32⟩
  | .hbm, ⟨32, _⟩ => ⟨S250000, .i32⟩
  | .hbm, ⟨33, _⟩ => ⟨S250000x1, .i32⟩
  | .hbm, ⟨34, _⟩ => ⟨S250000x128, .f32⟩
  | .hbm, ⟨35, _⟩ => ⟨S250000x272, .f32⟩
  | .hbm, ⟨36, _⟩ => ⟨S250000x272, .bf16⟩
  | .hbm, ⟨37, _⟩ => ⟨S272x256, .bf16⟩
  | .hbm, ⟨38, _⟩ => ⟨S256x256, .bf16⟩
  | .hbm, ⟨39, _⟩ => ⟨S256x128, .bf16⟩
  | .hbm, ⟨40, _⟩ => ⟨S272x256, .bf16⟩
  | .hbm, ⟨41, _⟩ => ⟨S256x256, .bf16⟩
  | .hbm, ⟨42, _⟩ => ⟨S256x128, .bf16⟩
  | .hbm, ⟨43, _⟩ => ⟨S250000x128, .bf16⟩
  | .hbm, ⟨44, _⟩ => ⟨S250000x128, .bf16⟩
  | .hbm, ⟨45, _⟩ => ⟨S250000x1, .f32⟩
  | .hbm, ⟨46, _⟩ => ⟨S_, .f32⟩
  | .hbm, ⟨47, _⟩ => ⟨S100000x128, .f32⟩
  | .hbm, ⟨48, _⟩ => ⟨S250000x128, .f32⟩
  | .hbm, ⟨49, _⟩ => ⟨S250000x128, .f32⟩
  | .hbm, ⟨50, _⟩ => ⟨S250000x128, .f32⟩
  | .hbm, ⟨51, _⟩ => ⟨S_, .i32⟩
  | .hbm, ⟨52, _⟩ => ⟨S250000, .i32⟩
  | .hbm, ⟨53, _⟩ => ⟨S250000, .i1⟩
  | .hbm, ⟨54, _⟩ => ⟨S_, .i32⟩
  | .hbm, ⟨55, _⟩ => ⟨S250000, .i32⟩
  | .hbm, ⟨56, _⟩ => ⟨S250000, .i32⟩
  | .hbm, ⟨57, _⟩ => ⟨S250000, .i32⟩
  | .hbm, ⟨58, _⟩ => ⟨S250000x1, .i32⟩
  | .hbm, ⟨59, _⟩ => ⟨S100000x128, .f32⟩
  | .hbm, ⟨60, _⟩ => ⟨S250000x128, .f32⟩
  | .hbm, ⟨61, _⟩ => ⟨S250000x128, .f32⟩
  | .hbm, ⟨62, _⟩ => ⟨S250000x128, .f32⟩
  | .hbm, ⟨63, _⟩ => ⟨S_, .i32⟩
  | .hbm, ⟨64, _⟩ => ⟨S250000, .i32⟩
  | .hbm, ⟨65, _⟩ => ⟨S250000, .i1⟩
  | .hbm, ⟨66, _⟩ => ⟨S_, .i32⟩
  | .hbm, ⟨67, _⟩ => ⟨S250000, .i32⟩
  | .hbm, ⟨68, _⟩ => ⟨S250000, .i32⟩
  | .hbm, ⟨69, _⟩ => ⟨S250000, .i32⟩
  | .hbm, ⟨70, _⟩ => ⟨S250000x1, .i32⟩
  | .hbm, ⟨71, _⟩ => ⟨S100000x128, .f32⟩
  | .hbm, ⟨72, _⟩ => ⟨S100000x128, .f32⟩
  | .local _ .vmem, ⟨0, _⟩ => ⟨S2000x272, .bf16⟩
  | .local _ .vmem, ⟨1, _⟩ => ⟨S2000x272, .bf16⟩
  | .local _ .vmem, ⟨2, _⟩ => ⟨S272x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x128, .bf16⟩
  | .local _ .vmem, ⟨7, _⟩ => ⟨S128, .f32⟩
  | .local _ .vmem, ⟨8, _⟩ => ⟨S272x256, .bf16⟩
  | .local _ .vmem, ⟨9, _⟩ => ⟨S256, .f32⟩
  | .local _ .vmem, ⟨10, _⟩ => ⟨S256x256, .bf16⟩
  | .local _ .vmem, ⟨11, _⟩ => ⟨S256, .f32⟩
  | .local _ .vmem, ⟨12, _⟩ => ⟨S256x128, .bf16⟩
  | .local _ .vmem, ⟨13, _⟩ => ⟨S128, .f32⟩
  | .local _ .vmem, ⟨14, _⟩ => ⟨S2000x128, .bf16⟩
  | .local _ .vmem, ⟨15, _⟩ => ⟨S2000x128, .bf16⟩
  | .local _ .vmem, ⟨16, _⟩ => ⟨S2000x128, .bf16⟩
  | .local _ .vmem, ⟨17, _⟩ => ⟨S2000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_3 : Ref sig .tc := ⟨.hbm, 51, rfl⟩
abbrev main_v28 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x272 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S272x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S272x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2000x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2000x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  concatenates_S250000x16_S250000x128_S250000x128_S250000x272_d1 : Shape.Concatenates [S250000x16, S250000x128, S250000x128] S250000x272 1
  bitsLt_bf16_f32 : FTy.bits .bf16 < FTy.bits .f32
  inb_S2000x272_S2000x272_0_0 : ∀ a, (![0, 0] : Fin 2 → Nat) a + S2000x272.size a ≤ S2000x272.size a
  h_S2000x272 : 0 < S2000x272.numel
  shapeCasts_S2000x272_S2000x272 : S2000x272.ShapeCasts S2000x272
  inb_S272x256_S272x256_0_0 : ∀ a, (![0, 0] : Fin 2 → Nat) a + S272x256.size a ≤ S272x256.size a
  h_S272x256 : 0 < S272x256.numel
  shapeCasts_S272x256_S272x256 : S272x256.ShapeCasts S272x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S100000x128 : S_.BroadcastsInDim S100000x128 (![] : Fin 0 → Fin S100000x128.rank)
  bcast_S250000x1_S250000x128_0_1 : S250000x1.BroadcastsInDim S250000x128 (![0, 1] : Fin 2 → Fin S250000x128.rank)
  gather_S100000x128_S250000x1_S250000x128_1_0_n_n_0_1_1128_wf : GatherDims.WF S100000x128 S250000x1 S250000x128 [1] [0] [] [0] [] 1 ![1, 128]
  dot_S2000x272_S272x256_S2000x256_1_0_0_1_n_n_wf : DotDims.WF S2000x272 S272x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  scatter_S100000x128_S250000x1_S250000x128_1_0_0_1_wf : ScatterDims.WF S100000x128 S250000x1 S250000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x272.size a ≤ S250000x272.size a
  hwx0_0 : ∀ i : grid0.Coords, EltTy.bits .bf16 = 32 ∨ (Rect.block (s := S250000x272) S2000x272.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S272x256.size a ≤ S272x256.size a
  hwx0_1 : ∀ i : grid0.Coords, EltTy.bits .bf16 = 32 ∨ (Rect.block (s := S272x256) S272x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S272x256.size a ≤ S272x256.size a
  hwx0_7 : ∀ i : grid0.Coords, EltTy.bits .bf16 = 32 ∨ (Rect.block (s := S272x256) S272x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .bf16 = 32 ∨ (Rect.block (s := S256x128) S256x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2000x128.size a ≤ S250000x128.size a
  hwx0_13 : ∀ i : grid0.Coords, EltTy.bits .bf16 = 32 ∨ (Rect.block (s := S250000x128) S2000x128.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2000x128.size a ≤ S250000x128.size a
  hwx0_14 : ∀ i : grid0.Coords, EltTy.bits .bf16 = 32 ∨ (Rect.block (s := S250000x128) S2000x128.size (cc0_transform_14 i) (hinb0_14 i)).WholeWords (EltTy.packing .bf16)

variable [Facts₀]

def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def dot_S2000x272_S272x256_S2000x256_1_0_0_1_n_n : DotDims S2000x272 S272x256 S2000x256 where
  lhsContracting := [1]
  rhsContracting := [0]
  lhsNonContracting := [0]
  rhsNonContracting := [1]
  lhsBatch := []
  rhsBatch := []
  wf := dot_S2000x272_S272x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S100000x128_S250000x1_S250000x128_1_0_0_1 : ScatterDims S100000x128 S250000x1 S250000x128 where
  updateWindowDims := [1]
  insertedWindowDims := [0]
  scatterDimsToOperandDims := [0]
  indexVectorDim := 1
  wf := scatter_S100000x128_S250000x1_S250000x128_1_0_0_1_wf

abbrev win0_0 : Pipeline.Window sig grid0 :=
  Pipeline.Window.ofSpec (Memref.whole main_v15) S2000x272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S272x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S272x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22_0) S2000x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v22_1) S2000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S100000x128 : Shape := ⟨2, ![100000, 128]⟩
abbrev S250000x16 : Shape := ⟨2, ![250000, 16]⟩
abbrev S250000 : Shape := ⟨1, ![250000]⟩
abbrev S272x256 : Shape := ⟨2, ![272, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩
abbrev S250000x1 : Shape := ⟨2, ![250000, 1]⟩
abbrev S250000x128 : Shape := ⟨2, ![250000, 128]⟩
abbrev S250000x272 : Shape := ⟨2, ![250000, 272]⟩
abbrev S250000x256 : Shape := ⟨2, ![250000, 256]⟩
abbrev S1x256 : Shape := ⟨2, ![1, 256]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S250000x16, .f32⟩
  | .hbm, ⟨2, _⟩ => ⟨S250000, .f32⟩
  | .hbm, ⟨3, _⟩ => ⟨S250000, .i32⟩
  | .hbm, ⟨4, _⟩ => ⟨S250000, .i32⟩
  | .hbm, ⟨5, _⟩ => ⟨S272x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S272x256, .f32⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S_, .i32⟩
  | .hbm, ⟨18, _⟩ => ⟨S250000, .i32⟩
  | .hbm, ⟨19, _⟩ => ⟨S250000, .i1⟩
  | .hbm, ⟨20, _⟩ => ⟨S_, .i32⟩
  | .hbm, ⟨21, _⟩ => ⟨S250000, .i32⟩
  | .hbm, ⟨22, _⟩ => ⟨S250000, .i32⟩
  | .hbm, ⟨23, _⟩ => ⟨S250000, .i32⟩
  | .hbm, ⟨24, _⟩ => ⟨S250000x1, .i32⟩
  | .hbm, ⟨25, _⟩ => ⟨S250000x128, .f32⟩
  | .hbm, ⟨26, _⟩ => ⟨S_, .i32⟩
  | .hbm, ⟨27, _⟩ => ⟨S250000, .i32⟩
  | .hbm, ⟨28, _⟩ => ⟨S250000, .i1⟩
  | .hbm, ⟨29, _⟩ => ⟨S_, .i32⟩
  | .hbm, ⟨30, _⟩ => ⟨S250000, .i32⟩
  | .hbm, ⟨31, _⟩ => ⟨S250000, .i32⟩
  | .hbm, ⟨32, _⟩ => ⟨S250000, .i32⟩
  | .hbm, ⟨33, _⟩ => ⟨S250000x1, .i32⟩
  | .hbm, ⟨34, _⟩ => ⟨S250000x128, .f32⟩
  | .hbm, ⟨35, _⟩ => ⟨S250000x272, .f32⟩
  | .hbm, ⟨36, _⟩ => ⟨S250000x1, .f32⟩
  | .hbm, ⟨37, _⟩ => ⟨S_, .f32⟩
  | .hbm, ⟨38, _⟩ => ⟨S100000x128, .f32⟩
  | .hbm, ⟨39, _⟩ => ⟨S250000x256, .f32⟩
  | .hbm, ⟨40, _⟩ => ⟨S1x256, .f32⟩
  | .hbm, ⟨41, _⟩ => ⟨S250000x256, .f32⟩
  | .hbm, ⟨42, _⟩ => ⟨S250000x256, .f32⟩
  | .hbm, ⟨43, _⟩ => ⟨S_, .f32⟩
  | .hbm, ⟨44, _⟩ => ⟨S250000x256, .f32⟩
  | .hbm, ⟨45, _⟩ => ⟨S250000x256, .f32⟩
  | .hbm, ⟨46, _⟩ => ⟨S250000x256, .f32⟩
  | .hbm, ⟨47, _⟩ => ⟨S1x256, .f32⟩
  | .hbm, ⟨48, _⟩ => ⟨S250000x256, .f32⟩
  | .hbm, ⟨49, _⟩ => ⟨S250000x256, .f32⟩
  | .hbm, ⟨50, _⟩ => ⟨S_, .f32⟩
  | .hbm, ⟨51, _⟩ => ⟨S250000x256, .f32⟩
  | .hbm, ⟨52, _⟩ => ⟨S250000x256, .f32⟩
  | .hbm, ⟨53, _⟩ => ⟨S250000x128, .f32⟩
  | .hbm, ⟨54, _⟩ => ⟨S1x128, .f32⟩
  | .hbm, ⟨55, _⟩ => ⟨S250000x128, .f32⟩
  | .hbm, ⟨56, _⟩ => ⟨S250000x128, .f32⟩
  | .hbm, ⟨57, _⟩ => ⟨S250000x128, .f32⟩
  | .hbm, ⟨58, _⟩ => ⟨S250000x128, .f32⟩
  | .hbm, ⟨59, _⟩ => ⟨S_, .i32⟩
  | .hbm, ⟨60, _⟩ => ⟨S250000, .i32⟩
  | .hbm, ⟨61, _⟩ => ⟨S250000, .i1⟩
  | .hbm, ⟨62, _⟩ => ⟨S_, .i32⟩
  | .hbm, ⟨63, _⟩ => ⟨S250000, .i32⟩
  | .hbm, ⟨64, _⟩ => ⟨S250000, .i32⟩
  | .hbm, ⟨65, _⟩ => ⟨S250000, .i32⟩
  | .hbm, ⟨66, _⟩ => ⟨S250000x1, .i32⟩
  | .hbm, ⟨67, _⟩ => ⟨S100000x128, .f32⟩
  | .hbm, ⟨68, _⟩ => ⟨S250000x256, .f32⟩
  | .hbm, ⟨69, _⟩ => ⟨S1x256, .f32⟩
  | .hbm, ⟨70, _⟩ => ⟨S250000x256, .f32⟩
  | .hbm, ⟨71, _⟩ => ⟨S250000x256, .f32⟩
  | .hbm, ⟨72, _⟩ => ⟨S_, .f32⟩
  | .hbm, ⟨73, _⟩ => ⟨S250000x256, .f32⟩
  | .hbm, ⟨74, _⟩ => ⟨S250000x256, .f32⟩
  | .hbm, ⟨75, _⟩ => ⟨S250000x256, .f32⟩
  | .hbm, ⟨76, _⟩ => ⟨S1x256, .f32⟩
  | .hbm, ⟨77, _⟩ => ⟨S250000x256, .f32⟩
  | .hbm, ⟨78, _⟩ => ⟨S250000x256, .f32⟩
  | .hbm, ⟨79, _⟩ => ⟨S_, .f32⟩
  | .hbm, ⟨80, _⟩ => ⟨S250000x256, .f32⟩
  | .hbm, ⟨81, _⟩ => ⟨S250000x256, .f32⟩
  | .hbm, ⟨82, _⟩ => ⟨S250000x128, .f32⟩
  | .hbm, ⟨83, _⟩ => ⟨S1x128, .f32⟩
  | .hbm, ⟨84, _⟩ => ⟨S250000x128, .f32⟩
  | .hbm, ⟨85, _⟩ => ⟨S250000x128, .f32⟩
  | .hbm, ⟨86, _⟩ => ⟨S250000x128, .f32⟩
  | .hbm, ⟨87, _⟩ => ⟨S250000x128, .f32⟩
  | .hbm, ⟨88, _⟩ => ⟨S_, .i32⟩
  | .hbm, ⟨89, _⟩ => ⟨S250000, .i32⟩
  | .hbm, ⟨90, _⟩ => ⟨S250000, .i1⟩
  | .hbm, ⟨91, _⟩ => ⟨S_, .i32⟩
  | .hbm, ⟨92, _⟩ => ⟨S250000, .i32⟩
  | .hbm, ⟨93, _⟩ => ⟨S250000, .i32⟩
  | .hbm, ⟨94, _⟩ => ⟨S250000, .i32⟩
  | .hbm, ⟨95, _⟩ => ⟨S250000x1, .i32⟩
  | .hbm, ⟨96, _⟩ => ⟨S100000x128, .f32⟩
  | .hbm, ⟨97, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_call0_cst : Ref sig .tc := ⟨.hbm, 43, rfl⟩
abbrev main_call0_v0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_call1_cst : Ref sig .tc := ⟨.hbm, 50, rfl⟩
abbrev main_call1_v0 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_3 : Ref sig .tc := ⟨.hbm, 59, rfl⟩
abbrev main_v33 : Ref sig .tc := ⟨.hbm, 60, rfl⟩
abbrev main_v34 : Ref sig .tc := ⟨.hbm, 61, rfl⟩
abbrev main_c_4 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call2_cst : Ref sig .tc := ⟨.hbm, 72, rfl⟩
abbrev main_call2_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call3_cst : Ref sig .tc := ⟨.hbm, 79, rfl⟩
abbrev main_call3_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_5 : Ref sig .tc := ⟨.hbm, 88, rfl⟩
abbrev main_v56 : Ref sig .tc := ⟨.hbm, 89, rfl⟩
abbrev main_v57 : Ref sig .tc := ⟨.hbm, 90, rfl⟩
abbrev main_c_6 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  concatenates_S250000x16_S250000x128_S250000x128_S250000x272_d1 : Shape.Concatenates [S250000x16, S250000x128, S250000x128] S250000x272 1
  bcast_S_S100000x128 : S_.BroadcastsInDim S100000x128 (![] : Fin 0 → Fin S100000x128.rank)
  bcast_S256_S1x256_1 : S256.BroadcastsInDim S1x256 (![1] : Fin 1 → Fin S1x256.rank)
  bcast_S1x256_S250000x256_0_1 : S1x256.BroadcastsInDim S250000x256 (![0, 1] : Fin 2 → Fin S250000x256.rank)
  bcast_S_S250000x256 : S_.BroadcastsInDim S250000x256 (![] : Fin 0 → Fin S250000x256.rank)
  bcast_S128_S1x128_1 : S128.BroadcastsInDim S1x128 (![1] : Fin 1 → Fin S1x128.rank)
  bcast_S1x128_S250000x128_0_1 : S1x128.BroadcastsInDim S250000x128 (![0, 1] : Fin 2 → Fin S250000x128.rank)
  bcast_S250000x1_S250000x128_0_1 : S250000x1.BroadcastsInDim S250000x128 (![0, 1] : Fin 2 → Fin S250000x128.rank)
  gather_S100000x128_S250000x1_S250000x128_1_0_n_n_0_1_1128_wf : GatherDims.WF S100000x128 S250000x1 S250000x128 [1] [0] [] [0] [] 1 ![1, 128]
  dot_S250000x272_S272x256_S250000x256_1_0_0_1_n_n_wf : DotDims.WF S250000x272 S272x256 S250000x256 [1] [0] [0] [1] [] []
  dot_S250000x256_S256x256_S250000x256_1_0_0_1_n_n_wf : DotDims.WF S250000x256 S256x256 S250000x256 [1] [0] [0] [1] [] []
  dot_S250000x256_S256x128_S250000x128_1_0_0_1_n_n_wf : DotDims.WF S250000x256 S256x128 S250000x128 [1] [0] [0] [1] [] []
  scatter_S100000x128_S250000x1_S250000x128_1_0_0_1_wf : ScatterDims.WF S100000x128 S250000x1 S250000x128 [1] [0] [0] 1

variable [Facts₀]

def gather_S100000x128_S250000x1_S250000x128_1_0_n_n_0_1_1128 : GatherDims S100000x128 S250000x1 S250000x128 where
  offsetDims := [1]
  collapsedSliceDims := [0]
  operandBatchingDims := []
  startIndicesBatchingDims := []
  startIndexMap := [0]
  indexVectorDim := 1
  sliceSizes := ![1, 128]
  wf := gather_S100000x128_S250000x1_S250000x128_1_0_n_n_0_1_1128_wf
def dot_S250000x272_S272x256_S250000x256_1_0_0_1_n_n : DotDims S250000x272 S272x256 S250000x256 where
  lhsContracting := [1]
  rhsContracting := [0]
  lhsNonContracting := [0]
  rhsNonContracting := [1]
  lhsBatch := []
  rhsBatch := []
  wf := dot_S250000x272_S272x256_S250000x256_1_0_0_1_n_n_wf
def dot_S250000x256_S256x256_S250000x256_1_0_0_1_n_n : DotDims S250000x256 S256x256 S250000x256 where
  lhsContracting := [1]
  rhsContracting := [0]
  lhsNonContracting := [0]
  rhsNonContracting := [1]
  lhsBatch := []
  rhsBatch := []
  wf := dot_S250000x256_S256x256_S250000x256_1_0_0_1_n_n_wf
def dot_S250000x256_S256x128_S250000x128_1_0_0_1_n_n : DotDims S250000x256 S256x128 S250000x128 where
  lhsContracting := [1]
  rhsContracting := [0]
  lhsNonContracting := [0]
  rhsNonContracting := [1]
  lhsBatch := []
  rhsBatch := []
  wf := dot_S250000x256_S256x128_S250000x128_1_0_0_1_n_n_wf
def scatter_S100000x128_S250000x1_S250000x128_1_0_0_1 : ScatterDims S100000x128 S250000x1 S250000x128 where
  updateWindowDims := [1]
  insertedWindowDims := [0]
  scatterDimsToOperandDims := [0]
  indexVectorDim := 1
  wf := scatter_S100000x128_S250000x1_S250000x128_1_0_0_1_wf

class Facts : Prop extends Facts₀ where

variable [Facts]
-- ==== Proof.FrameBits.lean ====
/- The frame run of the edge-network program, at any float instance.

   @main is three stretches: 26 host operations (index wrap-around, two row gathers, a three-operand
   concatenation, narrowings to bf16), ONE pipelined region of 125 grid points over 15 windows, and 28 host
   operations (widening, scaling, two scatter-additions, a hyperbolic tangent). The region's body applies two
   three-layer networks to one block of 2000 rows: it reads thirteen whole staging buffers (the rows' block and, per
   network, three weight matrices and three bias vectors) and stores one whole 2000x128 block into each of the two
   output windows. Nothing else is touched, so the run goes through the library's launch theorem for a region
   between two stretches of host operations: the arrays' contents at the region's entry ('V'), each window's block
   ('iblk'), what the body leaves in each output buffer ('out13', 'out14'), the body's triple, the proof data, the
   body obligation, the run ('run_main'), and the two readings of its post ('run_result', 'frame'). -/
import proofs.«160541_j29910152250019_2_alg».proof.Proof.Gen.Kernel.Launch
import proofs.«160541_j29910152250019_2_alg».proof.Proof.Gen.Kernel.Skeleton
import proofs.«160541_j29910152250019_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- deciding facts about rectangles of 2000 rows recurses once per coordinate of the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch contents run through the 26 host operations
    that precede it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No operation before the region leaves a buffer at undetermined contents (the concatenation included: it
    determines its result from its three operands). -/
theorem hostOps0_fresh : (hostOps0 : List (HloOp τ sig (Elt F))).Forall fun op => op.fresh = ∅ := by
  simp only [List.Forall]; repeat' constructor
/-- Nor does any operation after it. -/
theorem hostOps1_fresh : (hostOps1 : List (HloOp τ sig (Elt F))).Forall fun op => op.fresh = ∅ := by
  simp only [List.Forall]; repeat' constructor

/-- @main is the first stretch, the region, the second stretch: held at the launch contents it reduces to the
    region, entered at V, continued by the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second stretch touches only unscoped TensorCore buffers, each of which is an array of the pipeline or a
    buffer that bypasses the region (nothing is prefetched). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each operation of the second stretch writes its own result buffer only, and no result of the second stretch is
    one of the fifteen arrays the windows stage. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, Finset.mem_singleton]
  repeat' apply And.intro
  all_goals (intro w; refine StableHlo.devRef_ne_of_ne ?_; revert w; decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The arguments as the region finds them

The first stretch writes its own 26 result buffers and nothing else; an argument of @main is none of them, so the
region finds each argument as it was launched. One statement per argument, each by walking the stretch. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The arguments after the second stretch

An argument that no window stages bypasses the region, and no operation of the second stretch writes it either: read
after that stretch, from the region's exit contents (the arrays replaced, everything else as at the entry), it is
still the launch contents. Stated for any proof data of the pipeline; the six arguments a window stages are read
off the arrays instead ('args_kept' below). -/

theorem W_main_arg0 (D : (p : Fin 1) → (c : Dev nD) → Dat τ (Elt F) Unit ℕ (UR sig nD τ) ℕ (cfgs p) c) (c : Dev nD) :
    Pipeline.afterTail₀ cfgs D 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (D : (p : Fin 1) → (c : Dev nD) → Dat τ (Elt F) Unit ℕ (UR sig nD τ) ℕ (cfgs p) c) (c : Dev nD) :
    Pipeline.afterTail₀ cfgs D 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (D : (p : Fin 1) → (c : Dev nD) → Dat τ (Elt F) Unit ℕ (UR sig nD τ) ℕ (cfgs p) c) (c : Dev nD) :
    Pipeline.afterTail₀ cfgs D 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (D : (p : Fin 1) → (c : Dev nD) → Dat τ (Elt F) Unit ℕ (UR sig nD τ) ℕ (cfgs p) c) (c : Dev nD) :
    Pipeline.afterTail₀ cfgs D 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (D : (p : Fin 1) → (c : Dev nD) → Dat τ (Elt F) Unit ℕ (UR sig nD τ) ℕ (cfgs p) c) (c : Dev nD) :
    Pipeline.afterTail₀ cfgs D 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (D : (p : Fin 1) → (c : Dev nD) → Dat τ (Elt F) Unit ℕ (UR sig nD τ) ℕ (cfgs p) c) (c : Dev nD) :
    Pipeline.afterTail₀ cfgs D 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg7 (D : (p : Fin 1) → (c : Dev nD) → Dat τ (Elt F) Unit ℕ (UR sig nD τ) ℕ (cfgs p) c) (c : Dev nD) :
    Pipeline.afterTail₀ cfgs D 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg9 (D : (p : Fin 1) → (c : Dev nD) → Dat τ (Elt F) Unit ℕ (UR sig nD τ) ℕ (cfgs p) c) (c : Dev nD) :
    Pipeline.afterTail₀ cfgs D 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem W_main_arg11 (D : (p : Fin 1) → (c : Dev nD) → Dat τ (Elt F) Unit ℕ (UR sig nD τ) ℕ (cfgs p) c) (c : Dev nD) :
    Pipeline.afterTail₀ cfgs D 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem W_main_arg13 (D : (p : Fin 1) → (c : Dev nD) → Dat τ (Elt F) Unit ℕ (UR sig nD τ) ℕ (cfgs p) c) (c : Dev nD) :
    Pipeline.afterTail₀ cfgs D 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

theorem W_main_arg15 (D : (p : Fin 1) → (c : Dev nD) → Dat τ (Elt F) Unit ℕ (UR sig nD τ) ℕ (cfgs p) c) (c : Dev nD) :
    Pipeline.afterTail₀ cfgs D 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window w's block at grid point t, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses

Every load and both stores of the body go through the rectangle that is the whole buffer: offsets all zero, sizes
the buffer's own. One such rectangle per shape the body touches. -/

theorem zeros2 : (![0, 0] : Fin 2 → Nat) = fun _ => 0 := funext fun a => by fin_cases a <;> rfl
theorem zeros1 : (![0] : Fin 1 → Nat) = fun _ => 0 := funext fun a => by fin_cases a <;> rfl

/-- The whole 2000x272 block of rows. -/
abbrev rectRows : Rect S2000x272 := Rect.unit (s := S2000x272) ![0, 0] S2000x272.size inb_S2000x272_S2000x272_0_0
/-- A whole first-layer weight matrix (272x256). -/
abbrev rectW1 : Rect S272x256 := Rect.unit (s := S272x256) ![0, 0] S272x256.size inb_S272x256_S272x256_0_0
/-- A whole hidden-layer bias vector (256). -/
abbrev rectB256 : Rect S256 := Rect.unit (s := S256) ![0] S256.size inb_S256_S256_0
/-- A whole second-layer weight matrix (256x256). -/
abbrev rectW2 : Rect S256x256 := Rect.unit (s := S256x256) ![0, 0] S256x256.size inb_S256x256_S256x256_0_0
/-- A whole third-layer weight matrix (256x128). -/
abbrev rectW3 : Rect S256x128 := Rect.unit (s := S256x128) ![0, 0] S256x128.size inb_S256x128_S256x128_0_0
/-- A whole output-layer bias vector (128). -/
abbrev rectB128 : Rect S128 := Rect.unit (s := S128) ![0] S128.size inb_S128_S128_0
/-- A whole 2000x128 output block. -/
abbrev rectOut : Rect S2000x128 := Rect.unit (s := S2000x128) ![0, 0] S2000x128.size inb_S2000x128_S2000x128_0_0

/-! ## What the body leaves in each output window's buffer -/

/-- Window 13's staging buffer after the body: its one store, whose payload is the first network applied to the
    loaded rows, weights and biases (windows 0 to 6). -/
def out13 (x0 : Vec F S2000x272 .bf16) (x1 : Vec F S272x256 .bf16) (x2 : Vec F S256 .f32) (x3 : Vec F S256x256 .bf16)
    (x4 : Vec F S256 .f32) (x5 : Vec F S256x128 .bf16) (x6 : Vec F S128 .f32) : Vec F S2000x128 .bf16 :=
  View.canon [⟨rectOut, k0_pay3 (View.ld x0 rectRows) (View.ld x1 rectW1) (View.ld x2 rectB256) (View.ld x3 rectW2)
    (View.ld x4 rectB256) (View.ld x5 rectW3) (View.ld x6 rectB128)⟩]

/-- Window 14's staging buffer after the body: its one store, whose payload is the second network applied to the
    same rows and its own weights and biases (windows 0 and 7 to 12); its first product and first bias row are
    formed before the first network's store, the rest after. -/
def out14 (x0 : Vec F S2000x272 .bf16) (x7 : Vec F S272x256 .bf16) (x8 : Vec F S256 .f32) (x9 : Vec F S256x256 .bf16)
    (x10 : Vec F S256 .f32) (x11 : Vec F S256x128 .bf16) (x12 : Vec F S128 .f32) : Vec F S2000x128 .bf16 :=
  View.canon [⟨rectOut, k0_pay1 (k0_pay4 (View.ld x0 rectRows) (View.ld x7 rectW1)) (k0_pay5 (View.ld x8 rectB256))
    (View.ld x9 rectW2) (View.ld x10 rectB256) (View.ld x11 rectW3) (View.ld x12 rectB128)⟩]

/-- A store through the whole-buffer rectangle leaves its payload, and a load through one reads the buffer: so
    window 13 holds the first network of the seven blocks. -/
theorem out13_eq (x0 : Vec F S2000x272 .bf16) (x1 : Vec F S272x256 .bf16) (x2 : Vec F S256 .f32) (x3 : Vec F S256x256 .bf16)
    (x4 : Vec F S256 .f32) (x5 : Vec F S256x128 .bf16) (x6 : Vec F S128 .f32) :
    out13 x0 x1 x2 x3 x4 x5 x6 = k0_pay3 x0 x1 x2 x3 x4 x5 x6 := by
  unfold out13
  rw [View.canon_unit_zero (S := S2000x128) zeros2 inb_S2000x128_S2000x128_0_0]
  simp only [View.ld_unit_zero (S := S2000x272) zeros2 inb_S2000x272_S2000x272_0_0,
    View.ld_unit_zero (S := S272x256) zeros2 inb_S272x256_S272x256_0_0,
    View.ld_unit_zero (S := S256) zeros1 inb_S256_S256_0,
    View.ld_unit_zero (S := S256x256) zeros2 inb_S256x256_S256x256_0_0,
    View.ld_unit_zero (S := S256x128) zeros2 inb_S256x128_S256x128_0_0,
    View.ld_unit_zero (S := S128) zeros1 inb_S128_S128_0]

/-- Likewise window 14 holds the second network of its seven blocks. -/
theorem out14_eq (x0 : Vec F S2000x272 .bf16) (x7 : Vec F S272x256 .bf16) (x8 : Vec F S256 .f32) (x9 : Vec F S256x256 .bf16)
    (x10 : Vec F S256 .f32) (x11 : Vec F S256x128 .bf16) (x12 : Vec F S128 .f32) :
    out14 x0 x7 x8 x9 x10 x11 x12 = k0_pay1 (k0_pay4 x0 x7) (k0_pay5 x8) x9 x10 x11 x12 := by
  unfold out14
  rw [View.canon_unit_zero (S := S2000x128) zeros2 inb_S2000x128_S2000x128_0_0]
  simp only [View.ld_unit_zero (S := S2000x272) zeros2 inb_S2000x272_S2000x272_0_0,
    View.ld_unit_zero (S := S272x256) zeros2 inb_S272x256_S272x256_0_0,
    View.ld_unit_zero (S := S256) zeros1 inb_S256_S256_0,
    View.ld_unit_zero (S := S256x256) zeros2 inb_S256x256_S256x256_0_0,
    View.ld_unit_zero (S := S256x128) zeros2 inb_S256x128_S256x128_0_0,
    View.ld_unit_zero (S := S128) zeros1 inb_S128_S128_0]

/-- The one store of an output window covers its whole buffer: every index lies in the whole-buffer rectangle. -/
theorem cover_out (p : Vec F S2000x128 .bf16) (y : S2000x128.Idx) :
    ∃ pc ∈ ([⟨rectOut, p⟩] : List (View.Piece (Elt F) S2000x128 .bf16)), y ∈ pc.1.set :=
  ⟨_, List.mem_singleton_self _, View.mem_set_unit_zero (S := S2000x128) zeros2 inb_S2000x128_S2000x128_0_0 y⟩

/-! ## The body's triple -/

set_option maxHeartbeats 4000000 in
/-- The body on whole staging memrefs: the thirteen inputs' at read contents x0 ... x12, the two outputs' at
    anything. It runs to the continuation holding the inputs' as they were and the outputs' at 'out13' and 'out14'
    of the inputs. The body's text is its memory operations over named payloads (first part: seven loads, the first
    store, two more loads; then four loads and the second store; each output buffer is also loaded once before it is
    stored, the value unused), which the symbolic run executes one by one. -/
theorem sound_kernel (c : Dev nD) (E : Set ℕ) (i : grid0.Coords)
    (aRows : Memref sig .tc .vmem S2000x272 .bf16) (hRows : aRows.IsWhole)
    (aW1 : Memref sig .tc .vmem S272x256 .bf16) (hW1 : aW1.IsWhole)
    (aB1 : Memref sig .tc .vmem S256 .f32) (hB1 : aB1.IsWhole)
    (aW2 : Memref sig .tc .vmem S256x256 .bf16) (hW2 : aW2.IsWhole)
    (aB2 : Memref sig .tc .vmem S256 .f32) (hB2 : aB2.IsWhole)
    (aW3 : Memref sig .tc .vmem S256x128 .bf16) (hW3 : aW3.IsWhole)
    (aB3 : Memref sig .tc .vmem S128 .f32) (hB3 : aB3.IsWhole)
    (bW1 : Memref sig .tc .vmem S272x256 .bf16) (gW1 : bW1.IsWhole)
    (bB1 : Memref sig .tc .vmem S256 .f32) (gB1 : bB1.IsWhole)
    (bW2 : Memref sig .tc .vmem S256x256 .bf16) (gW2 : bW2.IsWhole)
    (bB2 : Memref sig .tc .vmem S256 .f32) (gB2 : bB2.IsWhole)
    (bW3 : Memref sig .tc .vmem S256x128 .bf16) (gW3 : bW3.IsWhole)
    (bB3 : Memref sig .tc .vmem S128 .f32) (gB3 : bB3.IsWhole)
    (oA : Memref sig .tc .vmem S2000x128 .bf16) (hoA : oA.IsWhole)
    (oB : Memref sig .tc .vmem S2000x128 .bf16) (hoB : oB.IsWhole)
    (x0 : Vec F S2000x272 .bf16) (x1 : Vec F S272x256 .bf16) (x2 : Vec F S256 .f32) (x3 : Vec F S256x256 .bf16)
    (x4 : Vec F S256 .f32) (x5 : Vec F S256x128 .bf16) (x6 : Vec F S128 .f32)
    (x7 : Vec F S272x256 .bf16) (x8 : Vec F S256 .f32) (x9 : Vec F S256x256 .bf16)
    (x10 : Vec F S256 .f32) (x11 : Vec F S256x128 .bf16) (x12 : Vec F S128 .f32)
    (K : PUnit → sProp 𝕄) :
    iprop(owns (c : Thread nD τ) aRows fullShare x0 ∗ owns (c : Thread nD τ) aW1 fullShare x1
        ∗ owns (c : Thread nD τ) aB1 fullShare x2 ∗ owns (c : Thread nD τ) aW2 fullShare x3
        ∗ owns (c : Thread nD τ) aB2 fullShare x4 ∗ owns (c : Thread nD τ) aW3 fullShare x5
        ∗ owns (c : Thread nD τ) aB3 fullShare x6 ∗ owns (c : Thread nD τ) bW1 fullShare x7
        ∗ owns (c : Thread nD τ) bB1 fullShare x8 ∗ owns (c : Thread nD τ) bW2 fullShare x9
        ∗ owns (c : Thread nD τ) bB2 fullShare x10 ∗ owns (c : Thread nD τ) bW3 fullShare x11
        ∗ owns (c : Thread nD τ) bB3 fullShare x12
        ∗ (∃ d, owns (c : Thread nD τ) oA fullShare d) ∗ (∃ d, owns (c : Thread nD τ) oB fullShare d)
        ∗ (iprop(owns (c : Thread nD τ) aRows fullShare x0 ∗ owns (c : Thread nD τ) aW1 fullShare x1
            ∗ owns (c : Thread nD τ) aB1 fullShare x2 ∗ owns (c : Thread nD τ) aW2 fullShare x3
            ∗ owns (c : Thread nD τ) aB2 fullShare x4 ∗ owns (c : Thread nD τ) aW3 fullShare x5
            ∗ owns (c : Thread nD τ) aB3 fullShare x6 ∗ owns (c : Thread nD τ) bW1 fullShare x7
            ∗ owns (c : Thread nD τ) bB1 fullShare x8 ∗ owns (c : Thread nD τ) bW2 fullShare x9
            ∗ owns (c : Thread nD τ) bB2 fullShare x10 ∗ owns (c : Thread nD τ) bW3 fullShare x11
            ∗ owns (c : Thread nD τ) bB3 fullShare x12
            ∗ owns (c : Thread nD τ) oA fullShare (out13 x0 x1 x2 x3 x4 x5 x6)
            ∗ owns (c : Thread nD τ) oB fullShare (out14 x0 x7 x8 x9 x10 x11 x12)) -∗ K ⟨⟩))
      ⊢ wp frame (wpE (defs₀ (F := F)) Variants.none c none) E
          (cc0__mlp_kernel i aRows hRows aW1 hW1 aB1 hB1 aW2 hW2 aB2 hB2 aW3 hW3 aB3 hB3 bW1 gW1 bB1 gB1 bW2 gW2 bB2 gB2
            bW3 gW3 bB3 gB3 oA hoA oB hoB) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover_out _)
  iexists _; isplitr
  swap; · iexact H14
  ipureintro
  exact View.read_writes_eq_canon _ _ _ (cover_out _)

/-! ## The pipeline's proof data -/

/-- The proof data of the one pipeline on core c. The arrays are as the region finds them (V). After the body at
    point t each input window's buffer still holds its block, window 13's holds the first network of the blocks of
    windows 0 to 6 and window 14's the second network of the blocks of windows 0 and 7 to 12. The invariant is the
    scoped rest and the generator register, untouched; nothing is owed; every share is the full one. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t)
    | ⟨14, _⟩ => out14 (iblk m c 0 t) (iblk m c 7 t) (iblk m c 8 t) (iblk m c 9 t) (iblk m c 10 t) (iblk m c 11 t) (iblk m c 12 t)
  Φ _ := Pipeline.ΦA spec0 c
  q _ := fullShare
  owed _ := 0

/-- The proof data's arrays are the region-entry contents: a projection of the definition, so that the fold over
    the first stretch inside V is never opened to see it. -/
theorem A_eq (c : Dev nD) (w : Fin cfg0.W) : (dats m 0 c).A w = V m c (Pipeline.arrRef spec0 w) := by
  dsimp only [dats]

/-! What the body leaves, window by window: the case analysis of the proof data reduced at each window. -/

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_in11 (c : Dev nD) (t : Fin cfg0.N) : (dats m 0 c).after 11 t = iblk m c 11 t := by dsimp only [dats]
theorem after_in12 (c : Dev nD) (t : Fin cfg0.N) : (dats m 0 c).after 12 t = iblk m c 12 t := by dsimp only [dats]
theorem after_out13 (c : Dev nD) (t : Fin cfg0.N) : (dats m 0 c).after 13 t
    = out13 (iblk m c 0 t) (iblk m c 1 t) (iblk m c 2 t) (iblk m c 3 t) (iblk m c 4 t) (iblk m c 5 t) (iblk m c 6 t) := by
  dsimp only [dats]
theorem after_out14 (c : Dev nD) (t : Fin cfg0.N) : (dats m 0 c).after 14 t
    = out14 (iblk m c 0 t) (iblk m c 7 t) (iblk m c 8 t) (iblk m c 9 t) (iblk m c 10 t) (iblk m c 11 t) (iblk m c 12 t) := by
  dsimp only [dats]

/-! Each input window's current staging buffer holds its block at every point, fetched there or not: where it is
    not fetched its block index has not moved and the body left the block in place. Window 0 is fetched at every
    point; windows 1 to 12 (the weights and biases, one constant block each) at the first point only. The windows are
    uncut and never idle. -/

theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq m c 0]; try rfl) t d).trans
    (by unfold Dat.fetched Dat.blockOf iblk; rw [A_eq m c 0]; try rfl)
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq m c 1]; try rfl) t d).trans
    (by unfold Dat.fetched Dat.blockOf iblk; rw [A_eq m c 1]; try rfl)
theorem before_in2 (c : Dev nD) (t : Fin cfg0.N) (d) : (dats m 0 c).before 2 t d = iblk m c 2 t :=
  ((dats m 0 c).before_in_eq_fetched 2 rfl (fun _ => rfl) (fun _ _ _ => rfl)
      (fun t => by rw [after_in2]; unfold Dat.blockOf iblk; rw [A_eq m c 2]; try rfl) t d).trans
    (by unfold Dat.fetched Dat.blockOf iblk; rw [A_eq m c 2]; try rfl)
theorem before_in3 (c : Dev nD) (t : Fin cfg0.N) (d) : (dats m 0 c).before 3 t d = iblk m c 3 t :=
  ((dats m 0 c).before_in_eq_fetched 3 rfl (fun _ => rfl) (fun _ _ _ => rfl)
      (fun t => by rw [after_in3]; unfold Dat.blockOf iblk; rw [A_eq m c 3]; try rfl) t d).trans
    (by unfold Dat.fetched Dat.blockOf iblk; rw [A_eq m c 3]; try rfl)
theorem before_in4 (c : Dev nD) (t : Fin cfg0.N) (d) : (dats m 0 c).before 4 t d = iblk m c 4 t :=
  ((dats m 0 c).before_in_eq_fetched 4 rfl (fun _ => rfl) (fun _ _ _ => rfl)
      (fun t => by rw [after_in4]; unfold Dat.blockOf iblk; rw [A_eq m c 4]; try rfl) t d).trans
    (by unfold Dat.fetched Dat.blockOf iblk; rw [A_eq m c 4]; try rfl)
theorem before_in5 (c : Dev nD) (t : Fin cfg0.N) (d) : (dats m 0 c).before 5 t d = iblk m c 5 t :=
  ((dats m 0 c).before_in_eq_fetched 5 rfl (fun _ => rfl) (fun _ _ _ => rfl)
      (fun t => by rw [after_in5]; unfold Dat.blockOf iblk; rw [A_eq m c 5]; try rfl) t d).trans
    (by unfold Dat.fetched Dat.blockOf iblk; rw [A_eq m c 5]; try rfl)
theorem before_in6 (c : Dev nD) (t : Fin cfg0.N) (d) : (dats m 0 c).before 6 t d = iblk m c 6 t :=
  ((dats m 0 c).before_in_eq_fetched 6 rfl (fun _ => rfl) (fun _ _ _ => rfl)
      (fun t => by rw [after_in6]; unfold Dat.blockOf iblk; rw [A_eq m c 6]; try rfl) t d).trans
    (by unfold Dat.fetched Dat.blockOf iblk; rw [A_eq m c 6]; try rfl)
theorem before_in7 (c : Dev nD) (t : Fin cfg0.N) (d) : (dats m 0 c).before 7 t d = iblk m c 7 t :=
  ((dats m 0 c).before_in_eq_fetched 7 rfl (fun _ => rfl) (fun _ _ _ => rfl)
      (fun t => by rw [after_in7]; unfold Dat.blockOf iblk; rw [A_eq m c 7]; try rfl) t d).trans
    (by unfold Dat.fetched Dat.blockOf iblk; rw [A_eq m c 7]; try rfl)
theorem before_in8 (c : Dev nD) (t : Fin cfg0.N) (d) : (dats m 0 c).before 8 t d = iblk m c 8 t :=
  ((dats m 0 c).before_in_eq_fetched 8 rfl (fun _ => rfl) (fun _ _ _ => rfl)
      (fun t => by rw [after_in8]; unfold Dat.blockOf iblk; rw [A_eq m c 8]; try rfl) t d).trans
    (by unfold Dat.fetched Dat.blockOf iblk; rw [A_eq m c 8]; try rfl)
theorem before_in9 (c : Dev nD) (t : Fin cfg0.N) (d) : (dats m 0 c).before 9 t d = iblk m c 9 t :=
  ((dats m 0 c).before_in_eq_fetched 9 rfl (fun _ => rfl) (fun _ _ _ => rfl)
      (fun t => by rw [after_in9]; unfold Dat.blockOf iblk; rw [A_eq m c 9]; try rfl) t d).trans
    (by unfold Dat.fetched Dat.blockOf iblk; rw [A_eq m c 9]; try rfl)
theorem before_in10 (c : Dev nD) (t : Fin cfg0.N) (d) : (dats m 0 c).before 10 t d = iblk m c 10 t :=
  ((dats m 0 c).before_in_eq_fetched 10 rfl (fun _ => rfl) (fun _ _ _ => rfl)
      (fun t => by rw [after_in10]; unfold Dat.blockOf iblk; rw [A_eq m c 10]; try rfl) t d).trans
    (by unfold Dat.fetched Dat.blockOf iblk; rw [A_eq m c 10]; try rfl)
theorem before_in11 (c : Dev nD) (t : Fin cfg0.N) (d) : (dats m 0 c).before 11 t d = iblk m c 11 t :=
  ((dats m 0 c).before_in_eq_fetched 11 rfl (fun _ => rfl) (fun _ _ _ => rfl)
      (fun t => by rw [after_in11]; unfold Dat.blockOf iblk; rw [A_eq m c 11]; try rfl) t d).trans
    (by unfold Dat.fetched Dat.blockOf iblk; rw [A_eq m c 11]; try rfl)
theorem before_in12 (c : Dev nD) (t : Fin cfg0.N) (d) : (dats m 0 c).before 12 t d = iblk m c 12 t :=
  ((dats m 0 c).before_in_eq_fetched 12 rfl (fun _ => rfl) (fun _ _ _ => rfl)
      (fun t => by rw [after_in12]; unfold Dat.blockOf iblk; rw [A_eq m c 12]; try rfl) t d).trans
    (by unfold Dat.fetched Dat.blockOf iblk; rw [A_eq m c 12]; try rfl)

/-! ## The body obligation, at a generic point -/

/-- What the body is called with at point t: the invariant, what the core owes, and each of the fifteen windows'
    current staging memref at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns: the invariant and the debt at the next point, each memref at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the thirteen inputs' memrefs hold their blocks, so the body's triple applies at those
    blocks; the invariant and the debt pass through unread, and do not change from one point to the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7,
    before_in8, before_in9, before_in10, before_in11, before_in12]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9,
    after_in10, after_in11, after_in12, after_out13, after_out14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 2000000 in
/-- The library's body obligation, at every point: its conjunction over the windows written out window by window
    is the statement above. -/
theorem body_obligation (c : Dev nD) : BodyObligation (dats (F := F) m 0 c) (defs₀ (F := F)) Variants.none () Set.univ := fun t => by
  rw [bigSep_W0, bigSep_W0]
  exact sound_body m c t

/-! ## The run and its readings -/

-- the launch theorem's implicit arguments are found by unifying its conclusion with this one, which takes unfolding
-- plain definitions inside the type of a metavariable
set_option backward.isDefEq.respectTransparency.types false in
/-- At the compiled mesh, for any values, from any memory with zero counters: every weakly fair execution of @main
    on the TensorCores terminates, and in every final state each array of the pipeline holds what the library
    computes from the proof data, and every other unscoped buffer what the second stretch leaves in it from the
    region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The seventeen arguments end as launched, read off the run's post. An argument no window stages (0, 1, 2, 3, 4,
    5, 7, 9, 11, 13, 15) is a buffer that bypasses the region: the post's second clause, then the second stretch
    leaves it alone. An argument a window stages (6, 8, 10, 12, 14, 16: the bias vectors, windows 2, 4, 6, 8, 10,
    12) is an input array: the post's first clause, an input array ends at its entry contents, and those are the
    launch contents. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).1 2).trans (((dats m 0 c).arrAt_in 2 rfl _).trans ((A_eq m c 2).trans (V_main_arg6 m c))),
   ((h c).2 main_arg7 (Pipeline.mem_restRefs_of main_arg7 (by decide) (by decide))).trans (W_main_arg7 m (dats m) c),
   ((h c).1 4).trans (((dats m 0 c).arrAt_in 4 rfl _).trans ((A_eq m c 4).trans (V_main_arg8 m c))),
   ((h c).2 main_arg9 (Pipeline.mem_restRefs_of main_arg9 (by decide) (by decide))).trans (W_main_arg9 m (dats m) c),
   ((h c).1 6).trans (((dats m 0 c).arrAt_in 6 rfl _).trans ((A_eq m c 6).trans (V_main_arg10 m c))),
   ((h c).2 main_arg11 (Pipeline.mem_restRefs_of main_arg11 (by decide) (by decide))).trans (W_main_arg11 m (dats m) c),
   ((h c).1 8).trans (((dats m 0 c).arrAt_in 8 rfl _).trans ((A_eq m c 8).trans (V_main_arg12 m c))),
   ((h c).2 main_arg13 (Pipeline.mem_restRefs_of main_arg13 (by decide) (by decide))).trans (W_main_arg13 m (dats m) c),
   ((h c).1 10).trans (((dats m 0 c).arrAt_in 10 rfl _).trans ((A_eq m c 10).trans (V_main_arg14 m c))),
   ((h c).2 main_arg15 (Pipeline.mem_restRefs_of main_arg15 (by decide) (by decide))).trans (W_main_arg15 m (dats m) c),
   ((h c).1 12).trans (((dats m 0 c).arrAt_in 12 rfl _).trans ((A_eq m c 12).trans (V_main_arg16 m c)))⟩

/-- The run read at the result and the arguments: the result buffer bypasses the region, so it ends at what the
    second stretch computes from the region's exit contents; the arguments end as launched. -/
theorem run_result : θ_run defs (onTc (τ := τ) (main (F := F))) ⟨m, fun _ => 0, ρ⟩ (fun r => ∀ c : Dev nD,
      r.2.mem ((c.tc : Thread nD τ).loc main_v45) = Pipeline.afterTail₀ cfgs (dats m) 0 (V0 m) [hostOps1] c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c).2 main_v45 (Pipeline.mem_restRefs_of main_v45 (by decide) (by decide)), args_kept m h c⟩) (run_main m ρ)

/-- The frame: every weakly fair execution of @main terminates and the seventeen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => args_kept m h c) (run_main m ρ)

end Cert.Kernel.Frm

end
-- ==== Proof.FrameIdeal.lean ====
/- The frame run of the edge-network program, at any float instance.

   @main is three stretches: 26 host operations (index wrap-around, two row gathers, a three-operand
   concatenation, narrowings to bf16), ONE pipelined region of 125 grid points over 15 windows, and 28 host
   operations (widening, scaling, two scatter-additions, a hyperbolic tangent). The region's body applies two
   three-layer networks to one block of 2000 rows: it reads thirteen whole staging buffers (the rows' block and, per
   network, three weight matrices and three bias vectors) and stores one whole 2000x128 block into each of the two
   output windows. Nothing else is touched, so the run goes through the library's launch theorem for a region
   between two stretches of host operations: the arrays' contents at the region's entry ('V'), each window's block
   ('iblk'), what the body leaves in each output buffer ('out13', 'out14'), the body's triple, the proof data, the
   body obligation, the run ('run_main'), and the two readings of its post ('run_result', 'frame'). -/
import proofs.«160541_j29910152250019_2_alg».proof.Proof.Gen.KernelIdeal.Launch
import proofs.«160541_j29910152250019_2_alg».proof.Proof.Gen.KernelIdeal.Skeleton
import proofs.«160541_j29910152250019_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

-- deciding facts about rectangles of 2000 rows recurses once per coordinate of the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core c's buffer contents when the region is entered: the launch contents run through the 26 host operations
    that precede it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No operation before the region leaves a buffer at undetermined contents (the concatenation included: it
    determines its result from its three operands). -/
theorem hostOps0_fresh : (hostOps0 : List (HloOp τ sig (Elt F))).Forall fun op => op.fresh = ∅ := by
  simp only [List.Forall]; repeat' constructor
/-- Nor does any operation after it. -/
theorem hostOps1_fresh : (hostOps1 : List (HloOp τ sig (Elt F))).Forall fun op => op.fresh = ∅ := by
  simp only [List.Forall]; repeat' constructor

/-- @main is the first stretch, the region, the second stretch: held at the launch contents it reduces to the
    region, entered at V, continued by the second stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The second stretch touches only unscoped TensorCore buffers, each of which is an array of the pipeline or a
    buffer that bypasses the region (nothing is prefetched). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- Each operation of the second stretch writes its own result buffer only, and no result of the second stretch is
    one of the fifteen arrays the windows stage. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes,
    StableHlo.ternary_writes, Finset.mem_singleton]
  repeat' apply And.intro
  all_goals (intro w; refine StableHlo.devRef_ne_of_ne ?_; revert w; decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  exact (List.forall_iff_forall_mem.mp hostOps1_keeps) op hop

/-! ## The arguments as the region finds them

The first stretch writes its own 26 result buffers and nothing else; an argument of @main is none of them, so the
region finds each argument as it was launched. One statement per argument, each by walking the stretch. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.nary_writes, Finset.mem_singleton]
    repeat' apply And.intro
    all_goals exact StableHlo.devRef_ne_of_ne (by decide)))

/-! ## The arguments after the second stretch

An argument that no window stages bypasses the region, and no operation of the second stretch writes it either: read
after that stretch, from the region's exit contents (the arrays replaced, everything else as at the entry), it is
still the launch contents. Stated for any proof data of the pipeline; the six arguments a window stages are read
off the arrays instead ('args_kept' below). -/

theorem W_main_arg0 (D : (p : Fin 1) → (c : Dev nD) → Dat τ (Elt F) Unit ℕ (UR sig nD τ) ℕ (cfgs p) c) (c : Dev nD) :
    Pipeline.afterTail₀ cfgs D 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem W_main_arg1 (D : (p : Fin 1) → (c : Dev nD) → Dat τ (Elt F) Unit ℕ (UR sig nD τ) ℕ (cfgs p) c) (c : Dev nD) :
    Pipeline.afterTail₀ cfgs D 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (D : (p : Fin 1) → (c : Dev nD) → Dat τ (Elt F) Unit ℕ (UR sig nD τ) ℕ (cfgs p) c) (c : Dev nD) :
    Pipeline.afterTail₀ cfgs D 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (D : (p : Fin 1) → (c : Dev nD) → Dat τ (Elt F) Unit ℕ (UR sig nD τ) ℕ (cfgs p) c) (c : Dev nD) :
    Pipeline.afterTail₀ cfgs D 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (D : (p : Fin 1) → (c : Dev nD) → Dat τ (Elt F) Unit ℕ (UR sig nD τ) ℕ (cfgs p) c) (c : Dev nD) :
    Pipeline.afterTail₀ cfgs D 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (D : (p : Fin 1) → (c : Dev nD) → Dat τ (Elt F) Unit ℕ (UR sig nD τ) ℕ (cfgs p) c) (c : Dev nD) :
    Pipeline.afterTail₀ cfgs D 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg7 (D : (p : Fin 1) → (c : Dev nD) → Dat τ (Elt F) Unit ℕ (UR sig nD τ) ℕ (cfgs p) c) (c : Dev nD) :
    Pipeline.afterTail₀ cfgs D 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem W_main_arg9 (D : (p : Fin 1) → (c : Dev nD) → Dat τ (Elt F) Unit ℕ (UR sig nD τ) ℕ (cfgs p) c) (c : Dev nD) :
    Pipeline.afterTail₀ cfgs D 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

theorem W_main_arg11 (D : (p : Fin 1) → (c : Dev nD) → Dat τ (Elt F) Unit ℕ (UR sig nD τ) ℕ (cfgs p) c) (c : Dev nD) :
    Pipeline.afterTail₀ cfgs D 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem W_main_arg13 (D : (p : Fin 1) → (c : Dev nD) → Dat τ (Elt F) Unit ℕ (UR sig nD τ) ℕ (cfgs p) c) (c : Dev nD) :
    Pipeline.afterTail₀ cfgs D 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

theorem W_main_arg15 (D : (p : Fin 1) → (c : Dev nD) → Dat τ (Elt F) Unit ℕ (UR sig nD τ) ℕ (cfgs p) c) (c : Dev nD) :
    Pipeline.afterTail₀ cfgs D 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes,
        StableHlo.ternary_writes, Finset.mem_singleton]
      repeat' apply And.intro
      all_goals exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window w's block at grid point t, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses

Every load and both stores of the body go through the rectangle that is the whole buffer: offsets all zero, sizes
the buffer's own. One such rectangle per shape the body touches. -/

theorem zeros2 : (![0, 0] : Fin 2 → Nat) = fun _ => 0 := funext fun a => by fin_cases a <;> rfl
theorem zeros1 : (![0] : Fin 1 → Nat) = fun _ => 0 := funext fun a => by fin_cases a <;> rfl

/-- The whole 2000x272 block of rows. -/
abbrev rectRows : Rect S2000x272 := Rect.unit (s := S2000x272) ![0, 0] S2000x272.size inb_S2000x272_S2000x272_0_0
/-- A whole first-layer weight matrix (272x256). -/
abbrev rectW1 : Rect S272x256 := Rect.unit (s := S272x256) ![0, 0] S272x256.size inb_S272x256_S272x256_0_0
/-- A whole hidden-layer bias vector (256). -/
abbrev rectB256 : Rect S256 := Rect.unit (s := S256) ![0] S256.size inb_S256_S256_0
/-- A whole second-layer weight matrix (256x256). -/
abbrev rectW2 : Rect S256x256 := Rect.unit (s := S256x256) ![0, 0] S256x256.size inb_S256x256_S256x256_0_0
/-- A whole third-layer weight matrix (256x128). -/
abbrev rectW3 : Rect S256x128 := Rect.unit (s := S256x128) ![0, 0] S256x128.size inb_S256x128_S256x128_0_0
/-- A whole output-layer bias vector (128). -/
abbrev rectB128 : Rect S128 := Rect.unit (s := S128) ![0] S128.size inb_S128_S128_0
/-- A whole 2000x128 output block. -/
abbrev rectOut : Rect S2000x128 := Rect.unit (s := S2000x128) ![0, 0] S2000x128.size inb_S2000x128_S2000x128_0_0

/-! ## What the body leaves in each output window's buffer -/

/-- Window 13's staging buffer after the body: its one store, whose payload is the first network applied to the
    loaded rows, weights and biases (windows 0 to 6). -/
def out13 (x0 : Vec F S2000x272 .bf16) (x1 : Vec F S272x256 .bf16) (x2 : Vec F S256 .f32) (x3 : Vec F S256x256 .bf16)
    (x4 : Vec F S256 .f32) (x5 : Vec F S256x128 .bf16) (x6 : Vec F S128 .f32) : Vec F S2000x128 .bf16 :=
  View.canon [⟨rectOut, k0_pay3 (View.ld x0 rectRows) (View.ld x1 rectW1) (View.ld x2 rectB256) (View.ld x3 rectW2)
    (View.ld x4 rectB256) (View.ld x5 rectW3) (View.ld x6 rectB128)⟩]

/-- Window 14's staging buffer after the body: its one store, whose payload is the second network applied to the
    same rows and its own weights and biases (windows 0 and 7 to 12); its first product and first bias row are
    formed before the first network's store, the rest after. -/
def out14 (x0 : Vec F S2000x272 .bf16) (x7 : Vec F S272x256 .bf16) (x8 : Vec F S256 .f32) (x9 : Vec F S256x256 .bf16)
    (x10 : Vec F S256 .f32) (x11 : Vec F S256x128 .bf16) (x12 : Vec F S128 .f32) : Vec F S2000x128 .bf16 :=
  View.canon [⟨rectOut, k0_pay1 (k0_pay4 (View.ld x0 rectRows) (View.ld x7 rectW1)) (k0_pay5 (View.ld x8 rectB256))
    (View.ld x9 rectW2) (View.ld x10 rectB256) (View.ld x11 rectW3) (View.ld x12 rectB128)⟩]

/-- A store through the whole-buffer rectangle leaves its payload, and a load through one reads the buffer: so
    window 13 holds the first network of the seven blocks. -/
theorem out13_eq (x0 : Vec F S2000x272 .bf16) (x1 : Vec F S272x256 .bf16) (x2 : Vec F S256 .f32) (x3 : Vec F S256x256 .bf16)
    (x4 : Vec F S256 .f32) (x5 : Vec F S256x128 .bf16) (x6 : Vec F S128 .f32) :
    out13 x0 x1 x2 x3 x4 x5 x6 = k0_pay3 x0 x1 x2 x3 x4 x5 x6 := by
  unfold out13
  rw [View.canon_unit_zero (S := S2000x128) zeros2 inb_S2000x128_S2000x128_0_0]
  simp only [View.ld_unit_zero (S := S2000x272) zeros2 inb_S2000x272_S2000x272_0_0,
    View.ld_unit_zero (S := S272x256) zeros2 inb_S272x256_S272x256_0_0,
    View.ld_unit_zero (S := S256) zeros1 inb_S256_S256_0,
    View.ld_unit_zero (S := S256x256) zeros2 inb_S256x256_S256x256_0_0,
    View.ld_unit_zero (S := S256x128) zeros2 inb_S256x128_S256x128_0_0,
    View.ld_unit_zero (S := S128) zeros1 inb_S128_S128_0]

/-- Likewise window 14 holds the second network of its seven blocks. -/
theorem out14_eq (x0 : Vec F S2000x272 .bf16) (x7 : Vec F S272x256 .bf16) (x8 : Vec F S256 .f32) (x9 : Vec F S256x256 .bf16)
    (x10 : Vec F S256 .f32) (x11 : Vec F S256x128 .bf16) (x12 : Vec F S128 .f32) :
    out14 x0 x7 x8 x9 x10 x11 x12 = k0_pay1 (k0_pay4 x0 x7) (k0_pay5 x8) x9 x10 x11 x12 := by
  unfold out14
  rw [View.canon_unit_zero (S := S2000x128) zeros2 inb_S2000x128_S2000x128_0_0]
  simp only [View.ld_unit_zero (S := S2000x272) zeros2 inb_S2000x272_S2000x272_0_0,
    View.ld_unit_zero (S := S272x256) zeros2 inb_S272x256_S272x256_0_0,
    View.ld_unit_zero (S := S256) zeros1 inb_S256_S256_0,
    View.ld_unit_zero (S := S256x256) zeros2 inb_S256x256_S256x256_0_0,
    View.ld_unit_zero (S := S256x128) zeros2 inb_S256x128_S256x128_0_0,
    View.ld_unit_zero (S := S128) zeros1 inb_S128_S128_0]

/-- The one store of an output window covers its whole buffer: every index lies in the whole-buffer rectangle. -/
theorem cover_out (p : Vec F S2000x128 .bf16) (y : S2000x128.Idx) :
    ∃ pc ∈ ([⟨rectOut, p⟩] : List (View.Piece (Elt F) S2000x128 .bf16)), y ∈ pc.1.set :=
  ⟨_, List.mem_singleton_self _, View.mem_set_unit_zero (S := S2000x128) zeros2 inb_S2000x128_S2000x128_0_0 y⟩

/-! ## The body's triple -/

set_option maxHeartbeats 4000000 in
/-- The body on whole staging memrefs: the thirteen inputs' at read contents x0 ... x12, the two outputs' at
    anything. It runs to the continuation holding the inputs' as they were and the outputs' at 'out13' and 'out14'
    of the inputs. The body's text is its memory operations over named payloads (first part: seven loads, the first
    store, two more loads; then four loads and the second store; each output buffer is also loaded once before it is
    stored, the value unused), which the symbolic run executes one by one. -/
theorem sound_kernel (c : Dev nD) (E : Set ℕ) (i : grid0.Coords)
    (aRows : Memref sig .tc .vmem S2000x272 .bf16) (hRows : aRows.IsWhole)
    (aW1 : Memref sig .tc .vmem S272x256 .bf16) (hW1 : aW1.IsWhole)
    (aB1 : Memref sig .tc .vmem S256 .f32) (hB1 : aB1.IsWhole)
    (aW2 : Memref sig .tc .vmem S256x256 .bf16) (hW2 : aW2.IsWhole)
    (aB2 : Memref sig .tc .vmem S256 .f32) (hB2 : aB2.IsWhole)
    (aW3 : Memref sig .tc .vmem S256x128 .bf16) (hW3 : aW3.IsWhole)
    (aB3 : Memref sig .tc .vmem S128 .f32) (hB3 : aB3.IsWhole)
    (bW1 : Memref sig .tc .vmem S272x256 .bf16) (gW1 : bW1.IsWhole)
    (bB1 : Memref sig .tc .vmem S256 .f32) (gB1 : bB1.IsWhole)
    (bW2 : Memref sig .tc .vmem S256x256 .bf16) (gW2 : bW2.IsWhole)
    (bB2 : Memref sig .tc .vmem S256 .f32) (gB2 : bB2.IsWhole)
    (bW3 : Memref sig .tc .vmem S256x128 .bf16) (gW3 : bW3.IsWhole)
    (bB3 : Memref sig .tc .vmem S128 .f32) (gB3 : bB3.IsWhole)
    (oA : Memref sig .tc .vmem S2000x128 .bf16) (hoA : oA.IsWhole)
    (oB : Memref sig .tc .vmem S2000x128 .bf16) (hoB : oB.IsWhole)
    (x0 : Vec F S2000x272 .bf16) (x1 : Vec F S272x256 .bf16) (x2 : Vec F S256 .f32) (x3 : Vec F S256x256 .bf16)
    (x4 : Vec F S256 .f32) (x5 : Vec F S256x128 .bf16) (x6 : Vec F S128 .f32)
    (x7 : Vec F S272x256 .bf16) (x8 : Vec F S256 .f32) (x9 : Vec F S256x256 .bf16)
    (x10 : Vec F S256 .f32) (x11 : Vec F S256x128 .bf16) (x12 : Vec F S128 .f32)
    (K : PUnit → sProp 𝕄) :
    iprop(owns (c : Thread nD τ) aRows fullShare x0 ∗ owns (c : Thread nD τ) aW1 fullShare x1
        ∗ owns (c : Thread nD τ) aB1 fullShare x2 ∗ owns (c : Thread nD τ) aW2 fullShare x3
        ∗ owns (c : Thread nD τ) aB2 fullShare x4 ∗ owns (c : Thread nD τ) aW3 fullShare x5
        ∗ owns (c : Thread nD τ) aB3 fullShare x6 ∗ owns (c : Thread nD τ) bW1 fullShare x7
        ∗ owns (c : Thread nD τ) bB1 fullShare x8 ∗ owns (c : Thread nD τ) bW2 fullShare x9
        ∗ owns (c : Thread nD τ) bB2 fullShare x10 ∗ owns (c : Thread nD τ) bW3 fullShare x11
        ∗ owns (c : Thread nD τ) bB3 fullShare x12
        ∗ (∃ d, owns (c : Thread nD τ) oA fullShare d) ∗ (∃ d, owns (c : Thread nD τ) oB fullShare d)
        ∗ (iprop(owns (c : Thread nD τ) aRows fullShare x0 ∗ owns (c : Thread nD τ) aW1 fullShare x1
            ∗ owns (c : Thread nD τ) aB1 fullShare x2 ∗ owns (c : Thread nD τ) aW2 fullShare x3
            ∗ owns (c : Thread nD τ) aB2 fullShare x4 ∗ owns (c : Thread nD τ) aW3 fullShare x5
            ∗ owns (c : Thread nD τ) aB3 fullShare x6 ∗ owns (c : Thread nD τ) bW1 fullShare x7
            ∗ owns (c : Thread nD τ) bB1 fullShare x8 ∗ owns (c : Thread nD τ) bW2 fullShare x9
            ∗ owns (c : Thread nD τ) bB2 fullShare x10 ∗ owns (c : Thread nD τ) bW3 fullShare x11
            ∗ owns (c : Thread nD τ) bB3 fullShare x12
            ∗ owns (c : Thread nD τ) oA fullShare (out13 x0 x1 x2 x3 x4 x5 x6)
            ∗ owns (c : Thread nD τ) oB fullShare (out14 x0 x7 x8 x9 x10 x11 x12)) -∗ K ⟨⟩))
      ⊢ wp frame (wpE (defs₀ (F := F)) Variants.none c none) E
          (cc0__mlp_kernel i aRows hRows aW1 hW1 aB1 hB1 aW2 hW2 aB2 hB2 aW3 hW3 aB3 hB3 bW1 gW1 bB1 gB1 bW2 gW2 bB2 gB2
            bW3 gW3 bB3 gB3 oA hoA oB hoB) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover_out _)
  iexists _; isplitr
  swap; · iexact H14
  ipureintro
  exact View.read_writes_eq_canon _ _ _ (cover_out _)

/-! ## The pipeline's proof data -/

/-- The proof data of the one pipeline on core c. The arrays are as the region finds them (V). After the body at
    point t each input window's buffer still holds its block, window 13's holds the first network of the blocks of
    windows 0 to 6 and window 14's the second network of the blocks of windows 0 and 7 to 12. The invariant is the
    scoped rest and the generator register, untouched; nothing is owed; every share is the full one. -/
def dats (_ : Fin 1) (c : Dev nD) : Pipeline.Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out13 (iblk m c 0 t) (iblk m c 1 t) (iblk m c 2 t) (iblk m c 3 t) (iblk m c 4 t) (iblk m c 5 t) (iblk m c 6 t)
    | ⟨14, _⟩ => out14 (iblk m c 0 t) (iblk m c 7 t) (iblk m c 8 t) (iblk m c 9 t) (iblk m c 10 t) (iblk m c 11 t) (iblk m c 12 t)
  Φ _ := Pipeline.ΦA spec0 c
  q _ := fullShare
  owed _ := 0

/-- The proof data's arrays are the region-entry contents: a projection of the definition, so that the fold over
    the first stretch inside V is never opened to see it. -/
theorem A_eq (c : Dev nD) (w : Fin cfg0.W) : (dats m 0 c).A w = V m c (Pipeline.arrRef spec0 w) := by
  dsimp only [dats]

/-! What the body leaves, window by window: the case analysis of the proof data reduced at each window. -/

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_in9 (c : Dev nD) (t : Fin cfg0.N) : (dats m 0 c).after 9 t = iblk m c 9 t := by dsimp only [dats]
theorem after_in10 (c : Dev nD) (t : Fin cfg0.N) : (dats m 0 c).after 10 t = iblk m c 10 t := by dsimp only [dats]
theorem after_in11 (c : Dev nD) (t : Fin cfg0.N) : (dats m 0 c).after 11 t = iblk m c 11 t := by dsimp only [dats]
theorem after_in12 (c : Dev nD) (t : Fin cfg0.N) : (dats m 0 c).after 12 t = iblk m c 12 t := by dsimp only [dats]
theorem after_out13 (c : Dev nD) (t : Fin cfg0.N) : (dats m 0 c).after 13 t
    = out13 (iblk m c 0 t) (iblk m c 1 t) (iblk m c 2 t) (iblk m c 3 t) (iblk m c 4 t) (iblk m c 5 t) (iblk m c 6 t) := by
  dsimp only [dats]
theorem after_out14 (c : Dev nD) (t : Fin cfg0.N) : (dats m 0 c).after 14 t
    = out14 (iblk m c 0 t) (iblk m c 7 t) (iblk m c 8 t) (iblk m c 9 t) (iblk m c 10 t) (iblk m c 11 t) (iblk m c 12 t) := by
  dsimp only [dats]

/-! Each input window's current staging buffer holds its block at every point, fetched there or not: where it is
    not fetched its block index has not moved and the body left the block in place. Window 0 is fetched at every
    point; windows 1 to 12 (the weights and biases, one constant block each) at the first point only. The windows are
    uncut and never idle. -/

theorem before_in0 (c : Dev nD) (t : Fin cfg0.N) (d) : (dats m 0 c).before 0 t d = iblk m c 0 t :=
  ((dats m 0 c).before_in_eq_fetched 0 rfl (fun _ => rfl) (fun _ _ _ => rfl)
      (fun t => by rw [after_in0]; unfold Dat.blockOf iblk; rw [A_eq m c 0]; try rfl) t d).trans
    (by unfold Dat.fetched Dat.blockOf iblk; rw [A_eq m c 0]; try rfl)
theorem before_in1 (c : Dev nD) (t : Fin cfg0.N) (d) : (dats m 0 c).before 1 t d = iblk m c 1 t :=
  ((dats m 0 c).before_in_eq_fetched 1 rfl (fun _ => rfl) (fun _ _ _ => rfl)
      (fun t => by rw [after_in1]; unfold Dat.blockOf iblk; rw [A_eq m c 1]; try rfl) t d).trans
    (by unfold Dat.fetched Dat.blockOf iblk; rw [A_eq m c 1]; try rfl)
theorem before_in2 (c : Dev nD) (t : Fin cfg0.N) (d) : (dats m 0 c).before 2 t d = iblk m c 2 t :=
  ((dats m 0 c).before_in_eq_fetched 2 rfl (fun _ => rfl) (fun _ _ _ => rfl)
      (fun t => by rw [after_in2]; unfold Dat.blockOf iblk; rw [A_eq m c 2]; try rfl) t d).trans
    (by unfold Dat.fetched Dat.blockOf iblk; rw [A_eq m c 2]; try rfl)
theorem before_in3 (c : Dev nD) (t : Fin cfg0.N) (d) : (dats m 0 c).before 3 t d = iblk m c 3 t :=
  ((dats m 0 c).before_in_eq_fetched 3 rfl (fun _ => rfl) (fun _ _ _ => rfl)
      (fun t => by rw [after_in3]; unfold Dat.blockOf iblk; rw [A_eq m c 3]; try rfl) t d).trans
    (by unfold Dat.fetched Dat.blockOf iblk; rw [A_eq m c 3]; try rfl)
theorem before_in4 (c : Dev nD) (t : Fin cfg0.N) (d) : (dats m 0 c).before 4 t d = iblk m c 4 t :=
  ((dats m 0 c).before_in_eq_fetched 4 rfl (fun _ => rfl) (fun _ _ _ => rfl)
      (fun t => by rw [after_in4]; unfold Dat.blockOf iblk; rw [A_eq m c 4]; try rfl) t d).trans
    (by unfold Dat.fetched Dat.blockOf iblk; rw [A_eq m c 4]; try rfl)
theorem before_in5 (c : Dev nD) (t : Fin cfg0.N) (d) : (dats m 0 c).before 5 t d = iblk m c 5 t :=
  ((dats m 0 c).before_in_eq_fetched 5 rfl (fun _ => rfl) (fun _ _ _ => rfl)
      (fun t => by rw [after_in5]; unfold Dat.blockOf iblk; rw [A_eq m c 5]; try rfl) t d).trans
    (by unfold Dat.fetched Dat.blockOf iblk; rw [A_eq m c 5]; try rfl)
theorem before_in6 (c : Dev nD) (t : Fin cfg0.N) (d) : (dats m 0 c).before 6 t d = iblk m c 6 t :=
  ((dats m 0 c).before_in_eq_fetched 6 rfl (fun _ => rfl) (fun _ _ _ => rfl)
      (fun t => by rw [after_in6]; unfold Dat.blockOf iblk; rw [A_eq m c 6]; try rfl) t d).trans
    (by unfold Dat.fetched Dat.blockOf iblk; rw [A_eq m c 6]; try rfl)
theorem before_in7 (c : Dev nD) (t : Fin cfg0.N) (d) : (dats m 0 c).before 7 t d = iblk m c 7 t :=
  ((dats m 0 c).before_in_eq_fetched 7 rfl (fun _ => rfl) (fun _ _ _ => rfl)
      (fun t => by rw [after_in7]; unfold Dat.blockOf iblk; rw [A_eq m c 7]; try rfl) t d).trans
    (by unfold Dat.fetched Dat.blockOf iblk; rw [A_eq m c 7]; try rfl)
theorem before_in8 (c : Dev nD) (t : Fin cfg0.N) (d) : (dats m 0 c).before 8 t d = iblk m c 8 t :=
  ((dats m 0 c).before_in_eq_fetched 8 rfl (fun _ => rfl) (fun _ _ _ => rfl)
      (fun t => by rw [after_in8]; unfold Dat.blockOf iblk; rw [A_eq m c 8]; try rfl) t d).trans
    (by unfold Dat.fetched Dat.blockOf iblk; rw [A_eq m c 8]; try rfl)
theorem before_in9 (c : Dev nD) (t : Fin cfg0.N) (d) : (dats m 0 c).before 9 t d = iblk m c 9 t :=
  ((dats m 0 c).before_in_eq_fetched 9 rfl (fun _ => rfl) (fun _ _ _ => rfl)
      (fun t => by rw [after_in9]; unfold Dat.blockOf iblk; rw [A_eq m c 9]; try rfl) t d).trans
    (by unfold Dat.fetched Dat.blockOf iblk; rw [A_eq m c 9]; try rfl)
theorem before_in10 (c : Dev nD) (t : Fin cfg0.N) (d) : (dats m 0 c).before 10 t d = iblk m c 10 t :=
  ((dats m 0 c).before_in_eq_fetched 10 rfl (fun _ => rfl) (fun _ _ _ => rfl)
      (fun t => by rw [after_in10]; unfold Dat.blockOf iblk; rw [A_eq m c 10]; try rfl) t d).trans
    (by unfold Dat.fetched Dat.blockOf iblk; rw [A_eq m c 10]; try rfl)
theorem before_in11 (c : Dev nD) (t : Fin cfg0.N) (d) : (dats m 0 c).before 11 t d = iblk m c 11 t :=
  ((dats m 0 c).before_in_eq_fetched 11 rfl (fun _ => rfl) (fun _ _ _ => rfl)
      (fun t => by rw [after_in11]; unfold Dat.blockOf iblk; rw [A_eq m c 11]; try rfl) t d).trans
    (by unfold Dat.fetched Dat.blockOf iblk; rw [A_eq m c 11]; try rfl)
theorem before_in12 (c : Dev nD) (t : Fin cfg0.N) (d) : (dats m 0 c).before 12 t d = iblk m c 12 t :=
  ((dats m 0 c).before_in_eq_fetched 12 rfl (fun _ => rfl) (fun _ _ _ => rfl)
      (fun t => by rw [after_in12]; unfold Dat.blockOf iblk; rw [A_eq m c 12]; try rfl) t d).trans
    (by unfold Dat.fetched Dat.blockOf iblk; rw [A_eq m c 12]; try rfl)

/-! ## The body obligation, at a generic point -/

/-- What the body is called with at point t: the invariant, what the core owes, and each of the fifteen windows'
    current staging memref at what it then holds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns: the invariant and the debt at the next point, each memref at what the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the thirteen inputs' memrefs hold their blocks, so the body's triple applies at those
    blocks; the invariant and the debt pass through unread, and do not change from one point to the next. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7,
    before_in8, before_in9, before_in10, before_in11, before_in12]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_in9,
    after_in10, after_in11, after_in12, after_out13, after_out14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

set_option maxHeartbeats 2000000 in
/-- The library's body obligation, at every point: its conjunction over the windows written out window by window
    is the statement above. -/
theorem body_obligation (c : Dev nD) : BodyObligation (dats (F := F) m 0 c) (defs₀ (F := F)) Variants.none () Set.univ := fun t => by
  rw [bigSep_W0, bigSep_W0]
  exact sound_body m c t

/-! ## The run and its readings -/

-- the launch theorem's implicit arguments are found by unifying its conclusion with this one, which takes unfolding
-- plain definitions inside the type of a metavariable
set_option backward.isDefEq.respectTransparency.types false in
/-- At the compiled mesh, for any values, from any memory with zero counters: every weakly fair execution of @main
    on the TensorCores terminates, and in every final state each array of the pipeline holds what the library
    computes from the proof data, and every other unscoped buffer what the second stretch leaves in it from the
    region's exit contents. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The seventeen arguments end as launched, read off the run's post. An argument no window stages (0, 1, 2, 3, 4,
    5, 7, 9, 11, 13, 15) is a buffer that bypasses the region: the post's second clause, then the second stretch
    leaves it alone. An argument a window stages (6, 8, 10, 12, 14, 16: the bias vectors, windows 2, 4, 6, 8, 10,
    12) is an input array: the post's first clause, an input array ends at its entry contents, and those are the
    launch contents. -/
theorem args_kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  ⟨((h c).2 main_arg0 (Pipeline.mem_restRefs_of main_arg0 (by decide) (by decide))).trans (W_main_arg0 m (dats m) c),
   ((h c).2 main_arg1 (Pipeline.mem_restRefs_of main_arg1 (by decide) (by decide))).trans (W_main_arg1 m (dats m) c),
   ((h c).2 main_arg2 (Pipeline.mem_restRefs_of main_arg2 (by decide) (by decide))).trans (W_main_arg2 m (dats m) c),
   ((h c).2 main_arg3 (Pipeline.mem_restRefs_of main_arg3 (by decide) (by decide))).trans (W_main_arg3 m (dats m) c),
   ((h c).2 main_arg4 (Pipeline.mem_restRefs_of main_arg4 (by decide) (by decide))).trans (W_main_arg4 m (dats m) c),
   ((h c).2 main_arg5 (Pipeline.mem_restRefs_of main_arg5 (by decide) (by decide))).trans (W_main_arg5 m (dats m) c),
   ((h c).1 2).trans (((dats m 0 c).arrAt_in 2 rfl _).trans ((A_eq m c 2).trans (V_main_arg6 m c))),
   ((h c).2 main_arg7 (Pipeline.mem_restRefs_of main_arg7 (by decide) (by decide))).trans (W_main_arg7 m (dats m) c),
   ((h c).1 4).trans (((dats m 0 c).arrAt_in 4 rfl _).trans ((A_eq m c 4).trans (V_main_arg8 m c))),
   ((h c).2 main_arg9 (Pipeline.mem_restRefs_of main_arg9 (by decide) (by decide))).trans (W_main_arg9 m (dats m) c),
   ((h c).1 6).trans (((dats m 0 c).arrAt_in 6 rfl _).trans ((A_eq m c 6).trans (V_main_arg10 m c))),
   ((h c).2 main_arg11 (Pipeline.mem_restRefs_of main_arg11 (by decide) (by decide))).trans (W_main_arg11 m (dats m) c),
   ((h c).1 8).trans (((dats m 0 c).arrAt_in 8 rfl _).trans ((A_eq m c 8).trans (V_main_arg12 m c))),
   ((h c).2 main_arg13 (Pipeline.mem_restRefs_of main_arg13 (by decide) (by decide))).trans (W_main_arg13 m (dats m) c),
   ((h c).1 10).trans (((dats m 0 c).arrAt_in 10 rfl _).trans ((A_eq m c 10).trans (V_main_arg14 m c))),
   ((h c).2 main_arg15 (Pipeline.mem_restRefs_of main_arg15 (by decide) (by decide))).trans (W_main_arg15 m (dats m) c),
   ((h c).1 12).trans (((dats m 0 c).arrAt_in 12 rfl _).trans ((A_eq m c 12).trans (V_main_arg16 m c)))⟩

/-- The run read at the result and the arguments: the result buffer bypasses the region, so it ends at what the
    second stretch computes from the region's exit contents; the arguments end as launched. -/
theorem run_result : θ_run defs (onTc (τ := τ) (main (F := F))) ⟨m, fun _ => 0, ρ⟩ (fun r => ∀ c : Dev nD,
      r.2.mem ((c.tc : Thread nD τ).loc main_v45) = Pipeline.afterTail₀ cfgs (dats m) 0 (V0 m) [hostOps1] c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c =>
    ⟨(h c).2 main_v45 (Pipeline.mem_restRefs_of main_v45 (by decide) (by decide)), args_kept m h c⟩) (run_main m ρ)

/-- The frame: every weakly fair execution of @main terminates and the seventeen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => args_kept m h c) (run_main m ρ)

end Cert.KernelIdeal.Frm

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«160541_j29910152250019_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.MlpSpec.lean ====
/-
  The edge network on one row.

  For each edge the network takes the edge's 272 inputs x (its 16 features and the 128 coordinates of each of its two
  end nodes) through two hidden layers of width 256, each a dense layer followed by a ReLU, and a linear output layer
  of width 128:
      mlp W1 b1 W2 b2 W3 b3 x = (relu ((relu (x·W1 + b1))·W2 + b2))·W3 + b3,
  on the extended reals, with `dense` and `relu` the row operations of the dense-layer lemmas. Both programs apply it
  to every edge twice, once per port, each port with weights and biases of its own.
-/
import proofs.«160541_j29910152250019_2_alg».proof.Proof.LibDenseRows

noncomputable section

namespace Cert.EdgeMlp

open Cert.LibDenseRows

/-- Two hidden ReLU layers and a linear output layer, on one input row. -/
def mlp {K H N : ℕ} (W1 : Fin K → Fin H → EReal) (b1 : Fin H → EReal) (W2 : Fin H → Fin H → EReal) (b2 : Fin H → EReal)
    (W3 : Fin H → Fin N → EReal) (b3 : Fin N → EReal) (x : Fin K → EReal) : Fin N → EReal :=
  dense W3 b3 (relu (dense W2 b2 (relu (dense W1 b1 x))))

end Cert.EdgeMlp

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«160541_j29910152250019_2_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.KernelRows.lean ====
/-
  The kernel body's two results read row by row.

  The body works on a block of 2000 edges at once — three matrix products into zero accumulators, each with its bias
  row added to every row, a maximum with zero after the first two, and changes of float format in between, which are
  the identity on the extended reals — once with the first port's weights and once with the second's. Row r of
  either result is `mlp` of row r of the input block with that port's weights: a row of a matrix product depends on
  that row of the left operand only, so the edges of a block never mix. No finiteness is used.
-/
import proofs.«160541_j29910152250019_2_alg».proof.Proof.Gen.KernelIdeal.Skeleton
import proofs.«160541_j29910152250019_2_alg».proof.Proof.MlpSpec
import proofs.«160541_j29910152250019_2_alg».proof.Proof.LibHostDenseRows
import Idealize.ShloMosaic.Lib.Pipeline.Value

noncomputable section

namespace Cert.EdgeMlp

open Idealize.ShloMosaic Idealize.ShloMosaic.ValueIdx Cert.LibDenseRows Cert.LibHostDenseRows

open Cert.KernelIdeal Cert.KernelIdeal.Gen

/-- The printed product records are the plain ones. -/
theorem dot1_plain : dot_S2000x272_S272x256_S2000x256_1_0_0_1_n_n = DotDims.plain 2000 272 256 := rfl
theorem dot2_plain : dot_S2000x256_S256x256_S2000x256_1_0_0_1_n_n = DotDims.plain 2000 256 256 := rfl
theorem dot3_plain : dot_S2000x256_S256x128_S2000x128_1_0_0_1_n_n = DotDims.plain 2000 256 128 := rfl

/-- One hidden layer as the body spells it: the product into the zero accumulator, the bias vector recast as a row and
    added to every row, the maximum with zero, the narrowing of the format. Row r is relu (dense …) of row r. -/
theorem hidden_rows {K : ℕ} {φ₁ φ₂ : FTy} (d : DotDims ⟨2, ![2000, K]⟩ ⟨2, ![K, 256]⟩ ⟨2, ![2000, 256]⟩)
    (hd : d = DotDims.plain 2000 K 256) (x : FVec Ideal ⟨2, ![2000, K]⟩ φ₁) (w : FVec Ideal ⟨2, ![K, 256]⟩ φ₂)
    (b : FVec Ideal S256 .f32) (r : Fin 2000) :
    rows (truncf .bf16 (maximumf (addf (matmul d none x w (constant (F := Ideal) S2000x256 .f32 0x00000000#32))
        (broadcastTo S2000x256 (shapeCast S1x256 b shapeCasts_S256_S1x256) broadcasts_S1x256_S2000x256))
        (broadcast S2000x256 (Scalar.ofBits (F := Ideal) .f32 0x00000000#32))) bitsLt_bf16_f32 : FVec Ideal S2000x256 .bf16) r
      = relu (dense (rows w) (vec b) (rows x r)) := by
  rw [truncf_eq, rows_max_zero, rows_matmul_bias d hd none x w _ broadcasts_S1x256_S2000x256 r, rows_shapeCast_vec]

/-- The output layer as the body spells it: the product, the bias row, the narrowing. Row r is dense … of row r. -/
theorem output_rows {φ₁ φ₂ : FTy} (x : FVec Ideal S2000x256 φ₁) (w : FVec Ideal S256x128 φ₂)
    (b : FVec Ideal S128 .f32) (r : Fin 2000) :
    rows (truncf .bf16 (addf (matmul dot_S2000x256_S256x128_S2000x128_1_0_0_1_n_n none x w (constant (F := Ideal) S2000x128 .f32 0x00000000#32))
        (broadcastTo S2000x128 (shapeCast S1x128 b shapeCasts_S128_S1x128) broadcasts_S1x128_S2000x128)) bitsLt_bf16_f32 : FVec Ideal S2000x128 .bf16) r
      = dense (rows w) (vec b) (rows x r) := by
  rw [truncf_eq, rows_matmul_bias _ dot3_plain none x w _ broadcasts_S1x128_S2000x128 r, rows_shapeCast_vec]

/-- The first port's result: row r of what the body stores into its first output block is `mlp` of row r of the
    input block, with the first port's weights and biases. -/
theorem port1_rows (x : FVec Ideal S2000x272 .bf16) (w1 : FVec Ideal S272x256 .bf16) (b1 : FVec Ideal S256 .f32)
    (w2 : FVec Ideal S256x256 .bf16) (b2 : FVec Ideal S256 .f32) (w3 : FVec Ideal S256x128 .bf16) (b3 : FVec Ideal S128 .f32)
    (r : Fin 2000) :
    rows (k0_pay3 (F := Ideal) x w1 b1 w2 b2 w3 b3) r
      = mlp (rows w1) (vec b1) (rows w2) (vec b2) (rows w3) (vec b3) (rows x r) := by
  unfold k0_pay3 k0_pay2 mlp
  simp only [shapeCast_self]
  rw [output_rows, hidden_rows _ dot2_plain, hidden_rows _ dot1_plain]

/-- The second port's result, which the body computes in two printed parts (the first product and the bias row in the
    first part, the rest in the second): the same network with the second port's weights and biases. -/
theorem port2_rows (x : FVec Ideal S2000x272 .bf16) (w1 : FVec Ideal S272x256 .bf16) (b1 : FVec Ideal S256 .f32)
    (w2 : FVec Ideal S256x256 .bf16) (b2 : FVec Ideal S256 .f32) (w3 : FVec Ideal S256x128 .bf16) (b3 : FVec Ideal S128 .f32)
    (r : Fin 2000) :
    rows (k0_pay1 (F := Ideal) (k0_pay4 x w1) (k0_pay5 b1) w2 b2 w3 b3) r
      = mlp (rows w1) (vec b1) (rows w2) (vec b2) (rows w3) (vec b3) (rows x r) := by
  unfold k0_pay1 k0_pay4 k0_pay5 k0_pay2 mlp
  simp only [shapeCast_self]
  rw [output_rows, hidden_rows _ dot2_plain, hidden_rows _ dot1_plain]

end Cert.EdgeMlp

end
-- ==== Proof.KernelArrays.lean ====
/-
  From the blocks the kernel stores to the two output arrays after the region.

  The region runs the body at 125 points; at point t the input window's block is rows 2000·t … 2000·t + 1999 of the
  joined input matrix, each weight or bias window's block is its whole array, and each output window's block — rows
  2000·t … 2000·t + 1999 of that output — is stored whole and written back. By the row lemmas an entry (r, q) of a
  stored block is the edge network applied to row 2000·t + r of the input, at column q; so what point t writes back is
  block t of ONE function of the arrays (`portArray`: row e is the network of row e of the input), the 125 blocks
  cover the 250000 rows, and each output array ends as that function.
-/
import proofs.«160541_j29910152250019_2_alg».proof.Proof.FrameIdeal
import proofs.«160541_j29910152250019_2_alg».proof.Proof.KernelRows
import Idealize.ShloMosaic.Lib.Pipeline.Value

set_option maxRecDepth 16384

noncomputable section

namespace Cert.EdgeMlp.KernelValue

open Cert.KernelIdeal Cert.KernelIdeal.Gen Cert.KernelIdeal.Frm Cert.LibDenseRows Cert.EdgeMlp
open Idealize.ShloMosaic Idealize.ShloMosaic.TcCoe Idealize.ShloMosaic.ValueIdx Idealize.SL.Sem

variable (m : (ℓ : Loc nD τ sig) → Buf (Elt Ideal) ℓ)

/-- The array either output ends holding: row e is the network applied to row e of the joined input. -/
def portArray (X : S250000x272.Idx → EReal) (W1 : S272x256.Idx → EReal) (B1 : S256.Idx → EReal) (W2 : S256x256.Idx → EReal)
    (B2 : S256.Idx → EReal) (W3 : S256x128.Idx → EReal) (B3 : S128.Idx → EReal) : S250000x128.Idx → EReal :=
  fun i => mlp (rows W1) (vec B1) (rows W2) (vec B2) (rows W3) (vec B3) (rows X (i 0)) (i 1)

/-- An entry of the first port's stored block is the matching entry of `portArray`, once the block's rows are rows of
    the input matrix and the other operands are the weight and bias arrays themselves. -/
theorem block_entry1 (X : S250000x272.Idx → EReal) (W1 : S272x256.Idx → EReal) (B1 : S256.Idx → EReal) (W2 : S256x256.Idx → EReal)
    (B2 : S256.Idx → EReal) (W3 : S256x128.Idx → EReal) (B3 : S128.Idx → EReal)
    (x : FVec Ideal S2000x272 .bf16) (w1 : FVec Ideal S272x256 .bf16) (b1 : FVec Ideal S256 .f32) (w2 : FVec Ideal S256x256 .bf16)
    (b2 : FVec Ideal S256 .f32) (w3 : FVec Ideal S256x128 .bf16) (b3 : FVec Ideal S128 .f32)
    (r : Fin 2000) (q : Fin 128) (e : Fin 250000)
    (hx : ∀ k : Fin 272, x (ix2 r k) = X (ix2 e k))
    (hw1 : (w1 : S272x256.Idx → EReal) = W1) (hb1 : (b1 : S256.Idx → EReal) = B1) (hw2 : (w2 : S256x256.Idx → EReal) = W2)
    (hb2 : (b2 : S256.Idx → EReal) = B2) (hw3 : (w3 : S256x128.Idx → EReal) = W3) (hb3 : (b3 : S128.Idx → EReal) = B3) :
    k0_pay3 (F := Ideal) x w1 b1 w2 b2 w3 b3 (ix2 r q) = portArray X W1 B1 W2 B2 W3 B3 (ix2 e q) := by
  subst hw1 hb1 hw2 hb2 hw3 hb3
  show rows (k0_pay3 (F := Ideal) x w1 b1 w2 b2 w3 b3) r q = mlp (rows w1) (vec b1) (rows w2) (vec b2) (rows w3) (vec b3) (rows X e) q
  rw [port1_rows, show rows x r = rows X e from funext hx]

/-- The printed index maps, decided once over the 125 grid points: the input block and both output blocks move together
    along the edge axis, one block of 2000 edges per point, and sit at column block 0. -/
theorem idx_moving : ∀ t : Fin cfg0.N,
    win0_0.index t (0 : Fin 2) = win0_13.index t (0 : Fin 2) ∧ win0_0.index t (1 : Fin 2) = 0
    ∧ win0_14.index t (0 : Fin 2) = win0_13.index t (0 : Fin 2) ∧ win0_14.index t (1 : Fin 2) = 0
    ∧ win0_13.index t (1 : Fin 2) = 0 ∧ win0_13.index t (0 : Fin 2) ≤ 124 :=
  (by decide +kernel : ∀ t : Fin grid0.N, _)

/-- Every block of 2000 edges is some point's. -/
theorem idx_onto : ∀ q0 : Fin 125, ∃ t : Fin cfg0.N, win0_13.index t (0 : Fin 2) = q0.val :=
  (by decide +kernel : ∀ q0 : Fin 125, ∃ t : Fin grid0.N, win0_13.index t (0 : Fin 2) = q0.val)

/-- The twelve weight and bias windows are each one block, the whole array, at every point. -/
theorem idx_fixed : ∀ t : Fin cfg0.N,
    (win0_1.index t (0 : Fin 2) = 0 ∧ win0_1.index t (1 : Fin 2) = 0) ∧ win0_2.index t (0 : Fin 1) = 0
    ∧ (win0_3.index t (0 : Fin 2) = 0 ∧ win0_3.index t (1 : Fin 2) = 0) ∧ win0_4.index t (0 : Fin 1) = 0
    ∧ (win0_5.index t (0 : Fin 2) = 0 ∧ win0_5.index t (1 : Fin 2) = 0) ∧ win0_6.index t (0 : Fin 1) = 0
    ∧ (win0_7.index t (0 : Fin 2) = 0 ∧ win0_7.index t (1 : Fin 2) = 0) ∧ win0_8.index t (0 : Fin 1) = 0
    ∧ (win0_9.index t (0 : Fin 2) = 0 ∧ win0_9.index t (1 : Fin 2) = 0) ∧ win0_10.index t (0 : Fin 1) = 0
    ∧ (win0_11.index t (0 : Fin 2) = 0 ∧ win0_11.index t (1 : Fin 2) = 0) ∧ win0_12.index t (0 : Fin 1) = 0 :=
  (by decide +kernel : ∀ t : Fin grid0.N, _)

/-! ## Each weight or bias window's block is its whole array -/

theorem whole_w1 (c : Dev nD) (t : Fin cfg0.N) : (iblk m c 1 t : S272x256.Idx → EReal) = V m c main_v16 := by
  obtain ⟨⟨e0, e1⟩, -⟩ := idx_fixed t
  funext y
  show V m c main_v16 (((cfg0.win 1).blk t).view.emb y) = V m c main_v16 y
  have h : ((cfg0.win 1).blk t).view.emb y = y := by
    funext a; apply Fin.ext
    match a with
    | ⟨0, _⟩ => show win0_1.index t (0 : Fin 2) * 272 + 1 * (y 0).val = (y 0).val; omega
    | ⟨1, _⟩ => show win0_1.index t (1 : Fin 2) * 256 + 1 * (y 1).val = (y 1).val; omega
  rw [h]

theorem whole_b1 (c : Dev nD) (t : Fin cfg0.N) : (iblk m c 2 t : S256.Idx → EReal) = V m c main_arg6 := by
  obtain ⟨-, e0, -⟩ := idx_fixed t
  funext y
  show V m c main_arg6 (((cfg0.win 2).blk t).view.emb y) = V m c main_arg6 y
  have h : ((cfg0.win 2).blk t).view.emb y = y := by
    funext a; apply Fin.ext
    match a with
    | ⟨0, _⟩ => show win0_2.index t (0 : Fin 1) * 256 + 1 * (y 0).val = (y 0).val; omega
  rw [h]

theorem whole_w2 (c : Dev nD) (t : Fin cfg0.N) : (iblk m c 3 t : S256x256.Idx → EReal) = V m c main_v17 := by
  obtain ⟨-, -, ⟨e0, e1⟩, -⟩ := idx_fixed t
  funext y
  show V m c main_v17 (((cfg0.win 3).blk t).view.emb y) = V m c main_v17 y
  have h : ((cfg0.win 3).blk t).view.emb y = y := by
    funext a; apply Fin.ext
    match a with
    | ⟨0, _⟩ => show win0_3.index t (0 : Fin 2) * 256 + 1 * (y 0).val = (y 0).val; omega
    | ⟨1, _⟩ => show win0_3.index t (1 : Fin 2) * 256 + 1 * (y 1).val = (y 1).val; omega
  rw [h]

theorem whole_b2 (c : Dev nD) (t : Fin cfg0.N) : (iblk m c 4 t : S256.Idx → EReal) = V m c main_arg8 := by
  obtain ⟨-, -, -, e0, -⟩ := idx_fixed t
  funext y
  show V m c main_arg8 (((cfg0.win 4).blk t).view.emb y) = V m c main_arg8 y
  have h : ((cfg0.win 4).blk t).view.emb y = y := by
    funext a; apply Fin.ext
    match a with
    | ⟨0, _⟩ => show win0_4.index t (0 : Fin 1) * 256 + 1 * (y 0).val = (y 0).val; omega
  rw [h]

theorem whole_w3 (c : Dev nD) (t : Fin cfg0.N) : (iblk m c 5 t : S256x128.Idx → EReal) = V m c main_v18 := by
  obtain ⟨-, -, -, -, ⟨e0, e1⟩, -⟩ := idx_fixed t
  funext y
  show V m c main_v18 (((cfg0.win 5).blk t).view.emb y) = V m c main_v18 y
  have h : ((cfg0.win 5).blk t).view.emb y = y := by
    funext a; apply Fin.ext
    match a with
    | ⟨0, _⟩ => show win0_5.index t (0 : Fin 2) * 256 + 1 * (y 0).val = (y 0).val; omega
    | ⟨1, _⟩ => show win0_5.index t (1 : Fin 2) * 128 + 1 * (y 1).val = (y 1).val; omega
  rw [h]

theorem whole_b3 (c : Dev nD) (t : Fin cfg0.N) : (iblk m c 6 t : S128.Idx → EReal) = V m c main_arg10 := by
  obtain ⟨-, -, -, -, -, e0, -⟩ := idx_fixed t
  funext y
  show V m c main_arg10 (((cfg0.win 6).blk t).view.emb y) = V m c main_arg10 y
  have h : ((cfg0.win 6).blk t).view.emb y = y := by
    funext a; apply Fin.ext
    match a with
    | ⟨0, _⟩ => show win0_6.index t (0 : Fin 1) * 128 + 1 * (y 0).val = (y 0).val; omega
  rw [h]

theorem whole_w4 (c : Dev nD) (t : Fin cfg0.N) : (iblk m c 7 t : S272x256.Idx → EReal) = V m c main_v19 := by
  obtain ⟨-, -, -, -, -, -, ⟨e0, e1⟩, -⟩ := idx_fixed t
  funext y
  show V m c main_v19 (((cfg0.win 7).blk t).view.emb y) = V m c main_v19 y
  have h : ((cfg0.win 7).blk t).view.emb y = y := by
    funext a; apply Fin.ext
    match a with
    | ⟨0, _⟩ => show win0_7.index t (0 : Fin 2) * 272 + 1 * (y 0).val = (y 0).val; omega
    | ⟨1, _⟩ => show win0_7.index t (1 : Fin 2) * 256 + 1 * (y 1).val = (y 1).val; omega
  rw [h]

theorem whole_b4 (c : Dev nD) (t : Fin cfg0.N) : (iblk m c 8 t : S256.Idx → EReal) = V m c main_arg12 := by
  obtain ⟨-, -, -, -, -, -, -, e0, -⟩ := idx_fixed t
  funext y
  show V m c main_arg12 (((cfg0.win 8).blk t).view.emb y) = V m c main_arg12 y
  have h : ((cfg0.win 8).blk t).view.emb y = y := by
    funext a; apply Fin.ext
    match a with
    | ⟨0, _⟩ => show win0_8.index t (0 : Fin 1) * 256 + 1 * (y 0).val = (y 0).val; omega
  rw [h]

theorem whole_w5 (c : Dev nD) (t : Fin cfg0.N) : (iblk m c 9 t : S256x256.Idx → EReal) = V m c main_v20 := by
  obtain ⟨-, -, -, -, -, -, -, -, ⟨e0, e1⟩, -⟩ := idx_fixed t
  funext y
  show V m c main_v20 (((cfg0.win 9).blk t).view.emb y) = V m c main_v20 y
  have h : ((cfg0.win 9).blk t).view.emb y = y := by
    funext a; apply Fin.ext
    match a with
    | ⟨0, _⟩ => show win0_9.index t (0 : Fin 2) * 256 + 1 * (y 0).val = (y 0).val; omega
    | ⟨1, _⟩ => show win0_9.index t (1 : Fin 2) * 256 + 1 * (y 1).val = (y 1).val; omega
  rw [h]

theorem whole_b5 (c : Dev nD) (t : Fin cfg0.N) : (iblk m c 10 t : S256.Idx → EReal) = V m c main_arg14 := by
  obtain ⟨-, -, -, -, -, -, -, -, -, e0, -⟩ := idx_fixed t
  funext y
  show V m c main_arg14 (((cfg0.win 10).blk t).view.emb y) = V m c main_arg14 y
  have h : ((cfg0.win 10).blk t).view.emb y = y := by
    funext a; apply Fin.ext
    match a with
    | ⟨0, _⟩ => show win0_10.index t (0 : Fin 1) * 256 + 1 * (y 0).val = (y 0).val; omega
  rw [h]

theorem whole_w6 (c : Dev nD) (t : Fin cfg0.N) : (iblk m c 11 t : S256x128.Idx → EReal) = V m c main_v21 := by
  obtain ⟨-, -, -, -, -, -, -, -, -, -, ⟨e0, e1⟩, -⟩ := idx_fixed t
  funext y
  show V m c main_v21 (((cfg0.win 11).blk t).view.emb y) = V m c main_v21 y
  have h : ((cfg0.win 11).blk t).view.emb y = y := by
    funext a; apply Fin.ext
    match a with
    | ⟨0, _⟩ => show win0_11.index t (0 : Fin 2) * 256 + 1 * (y 0).val = (y 0).val; omega
    | ⟨1, _⟩ => show win0_11.index t (1 : Fin 2) * 128 + 1 * (y 1).val = (y 1).val; omega
  rw [h]

theorem whole_b6 (c : Dev nD) (t : Fin cfg0.N) : (iblk m c 12 t : S128.Idx → EReal) = V m c main_arg16 := by
  obtain ⟨-, -, -, -, -, -, -, -, -, -, -, e0⟩ := idx_fixed t
  funext y
  show V m c main_arg16 (((cfg0.win 12).blk t).view.emb y) = V m c main_arg16 y
  have h : ((cfg0.win 12).blk t).view.emb y = y := by
    funext a; apply Fin.ext
    match a with
    | ⟨0, _⟩ => show win0_12.index t (0 : Fin 1) * 128 + 1 * (y 0).val = (y 0).val; omega
  rw [h]

/-! ## What each point writes back, and the arrays after the run -/

/-- Row r of the input window's block at point t is row (block index)·2000 + r of the joined input array. -/
theorem input_row (c : Dev nD) (t : Fin cfg0.N) (r : Fin 2000) (k : Fin 272) (e : Fin 250000)
    (he : e.val = win0_13.index t (0 : Fin 2) * 2000 + r.val) :
    (iblk m c 0 t : S2000x272.Idx → EReal) (ix2 r k) = V m c main_v15 (ix2 e k) := by
  obtain ⟨e0, e1, -⟩ := idx_moving t
  show V m c main_v15 (((cfg0.win 0).blk t).view.emb (ix2 r k)) = V m c main_v15 (ix2 e k)
  have h : ((cfg0.win 0).blk t).view.emb (ix2 r k) = ix2 e k := by
    funext a; apply Fin.ext
    match a with
    | ⟨0, _⟩ => show win0_0.index t (0 : Fin 2) * 2000 + 1 * r.val = e.val; omega
    | ⟨1, _⟩ => show win0_0.index t (1 : Fin 2) * 272 + 1 * k.val = k.val; omega
  rw [h]

/-- The first output's array as one function of the arrays the region finds. -/
def G13 (c : Dev nD) : S250000x128.Idx → EReal :=
  portArray (V m c main_v15) (V m c main_v16) (V m c main_arg6) (V m c main_v17) (V m c main_arg8) (V m c main_v18) (V m c main_arg10)

/-- WHAT POINT t WRITES BACK into the first output is block t of `G13`. -/
theorem flushed13_eq (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after_out13, out13_eq]
  obtain ⟨-, -, -, -, e4, e5⟩ := idx_moving t
  funext j
  obtain ⟨r, q, rfl⟩ : ∃ (r : Fin 2000) (q : Fin 128), j = ix2 r q := ⟨j 0, j 1, eq_ix2 j⟩
  have hlt : win0_13.index t (0 : Fin 2) * 2000 + r.val < 250000 := by have := r.isLt; omega
  have hemb : ((cfg0.win 13).blk t).view.emb (ix2 r q) = ix2 (⟨win0_13.index t (0 : Fin 2) * 2000 + r.val, hlt⟩ : Fin 250000) q := by
    funext a; apply Fin.ext
    match a with
    | ⟨0, _⟩ => show win0_13.index t (0 : Fin 2) * 2000 + 1 * r.val = win0_13.index t (0 : Fin 2) * 2000 + r.val; omega
    | ⟨1, _⟩ => show win0_13.index t (1 : Fin 2) * 128 + 1 * q.val = q.val; omega
  show k0_pay3 (F := Ideal) (iblk m c 0 t) (iblk m c 1 t) (iblk m c 2 t) (iblk m c 3 t) (iblk m c 4 t) (iblk m c 5 t) (iblk m c 6 t) (ix2 r q)
    = G13 m c (((cfg0.win 13).blk t).view.emb (ix2 r q))
  rw [hemb]
  exact block_entry1 (V m c main_v15) (V m c main_v16) (V m c main_arg6) (V m c main_v17) (V m c main_arg8) (V m c main_v18) (V m c main_arg10)
    (iblk m c 0 t) (iblk m c 1 t) (iblk m c 2 t) (iblk m c 3 t) (iblk m c 4 t) (iblk m c 5 t) (iblk m c 6 t) r q ⟨_, hlt⟩
    (fun k => input_row m c t r k ⟨_, hlt⟩ rfl) (whole_w1 m c t) (whole_b1 m c t) (whole_w2 m c t) (whole_b2 m c t) (whole_w3 m c t) (whole_b3 m c t)

/-- An entry of the second port's stored block, likewise. -/
theorem block_entry2 (X : S250000x272.Idx → EReal) (W1 : S272x256.Idx → EReal) (B1 : S256.Idx → EReal) (W2 : S256x256.Idx → EReal)
    (B2 : S256.Idx → EReal) (W3 : S256x128.Idx → EReal) (B3 : S128.Idx → EReal)
    (x : FVec Ideal S2000x272 .bf16) (w1 : FVec Ideal S272x256 .bf16) (b1 : FVec Ideal S256 .f32) (w2 : FVec Ideal S256x256 .bf16)
    (b2 : FVec Ideal S256 .f32) (w3 : FVec Ideal S256x128 .bf16) (b3 : FVec Ideal S128 .f32)
    (r : Fin 2000) (q : Fin 128) (e : Fin 250000)
    (hx : ∀ k : Fin 272, x (ix2 r k) = X (ix2 e k))
    (hw1 : (w1 : S272x256.Idx → EReal) = W1) (hb1 : (b1 : S256.Idx → EReal) = B1) (hw2 : (w2 : S256x256.Idx → EReal) = W2)
    (hb2 : (b2 : S256.Idx → EReal) = B2) (hw3 : (w3 : S256x128.Idx → EReal) = W3) (hb3 : (b3 : S128.Idx → EReal) = B3) :
    k0_pay1 (F := Ideal) (k0_pay4 x w1) (k0_pay5 b1) w2 b2 w3 b3 (ix2 r q) = portArray X W1 B1 W2 B2 W3 B3 (ix2 e q) := by
  subst hw1 hb1 hw2 hb2 hw3 hb3
  show rows (k0_pay1 (F := Ideal) (k0_pay4 x w1) (k0_pay5 b1) w2 b2 w3 b3) r q
    = mlp (rows w1) (vec b1) (rows w2) (vec b2) (rows w3) (vec b3) (rows X e) q
  rw [port2_rows, show rows x r = rows X e from funext hx]

/-- The second output's array as one function of the arrays the region finds: the same input, the second port's weights. -/
def G14 (c : Dev nD) : S250000x128.Idx → EReal :=
  portArray (V m c main_v15) (V m c main_v19) (V m c main_arg12) (V m c main_v20) (V m c main_arg14) (V m c main_v21) (V m c main_arg16)

/-- WHAT POINT t WRITES BACK into the second output is block t of `G14`. -/
theorem flushed14_eq (c : Dev nD) (t : Fin cfg0.N) :
    (dats m 0 c).flushed 14 t = ((cfg0.win 14).blk t).view.read (Elt Ideal) (G14 m c) := by
  show (cfg0.win 14).cut (grid0.coords t) ((dats m 0 c).after 14 t) = _
  rw [after_out14, out14_eq]
  obtain ⟨-, -, e2, e3, -, e5⟩ := idx_moving t
  funext j
  obtain ⟨r, q, rfl⟩ : ∃ (r : Fin 2000) (q : Fin 128), j = ix2 r q := ⟨j 0, j 1, eq_ix2 j⟩
  have hlt : win0_14.index t (0 : Fin 2) * 2000 + r.val < 250000 := by have := r.isLt; omega
  have hemb : ((cfg0.win 14).blk t).view.emb (ix2 r q) = ix2 (⟨win0_14.index t (0 : Fin 2) * 2000 + r.val, hlt⟩ : Fin 250000) q := by
    funext a; apply Fin.ext
    match a with
    | ⟨0, _⟩ => show win0_14.index t (0 : Fin 2) * 2000 + 1 * r.val = win0_14.index t (0 : Fin 2) * 2000 + r.val; omega
    | ⟨1, _⟩ => show win0_14.index t (1 : Fin 2) * 128 + 1 * q.val = q.val; omega
  show k0_pay1 (F := Ideal) (k0_pay4 (iblk m c 0 t) (iblk m c 7 t)) (k0_pay5 (iblk m c 8 t)) (iblk m c 9 t) (iblk m c 10 t) (iblk m c 11 t) (iblk m c 12 t) (ix2 r q)
    = G14 m c (((cfg0.win 14).blk t).view.emb (ix2 r q))
  rw [hemb]
  exact block_entry2 (V m c main_v15) (V m c main_v19) (V m c main_arg12) (V m c main_v20) (V m c main_arg14) (V m c main_v21) (V m c main_arg16)
    (iblk m c 0 t) (iblk m c 7 t) (iblk m c 8 t) (iblk m c 9 t) (iblk m c 10 t) (iblk m c 11 t) (iblk m c 12 t) r q ⟨_, hlt⟩
    (fun k => input_row m c t r k ⟨_, hlt⟩ (by show win0_14.index t (0 : Fin 2) * 2000 + r.val = _; omega))
    (whole_w4 m c t) (whole_b4 m c t) (whole_w5 m c t) (whole_b5 m c t) (whole_w6 m c t) (whole_b6 m c t)

/-! ## The blocks cover the arrays -/

/-- An index of the first output array is in point t's block iff each coordinate is in the block's range on its axis. -/
theorem mem_blk13 (t : Fin cfg0.N) (i : S250000x128.Idx) :
    i ∈ ((cfg0.win 13).blk t).view.set ↔ ∀ a : Fin 2, win0_13.index t a * S2000x128.size a ≤ (i a).val ∧ (i a).val < win0_13.index t a * S2000x128.size a + S2000x128.size a := by
  show i ∈ ((View.whole main_v22_0).slice (win0_13.rect t)).set ↔ _
  rw [View.set_slice_whole, Rect.mem_set_unit]
  exact Iff.rfl

theorem mem_blk14 (t : Fin cfg0.N) (i : S250000x128.Idx) :
    i ∈ ((cfg0.win 14).blk t).view.set ↔ ∀ a : Fin 2, win0_14.index t a * S2000x128.size a ≤ (i a).val ∧ (i a).val < win0_14.index t a * S2000x128.size a + S2000x128.size a := by
  show i ∈ ((View.whole main_v22_1).slice (win0_14.rect t)).set ↔ _
  rw [View.set_slice_whole, Rect.mem_set_unit]
  exact Iff.rfl

/-- Every edge row lies in the block of the point numbered (row) / 2000, and every point writes its block back. -/
theorem cover13 (i : S250000x128.Idx) : ∃ t : Fin cfg0.N, (cfg0.win 13).flush t = true ∧ i ∈ ((cfg0.win 13).blk t).view.set := by
  have hi0 : (i 0).val < 250000 := (i 0).isLt
  have hi1 : (i 1).val < 128 := (i 1).isLt
  obtain ⟨t, ht⟩ := idx_onto ⟨(i 0).val / 2000, by omega⟩
  have ht' : win0_13.index t (0 : Fin 2) = (i 0).val / 2000 := ht
  obtain ⟨-, -, -, -, e4, -⟩ := idx_moving t
  refine ⟨t, flush0_13 t, ?_⟩
  rw [mem_blk13]
  intro a
  match a with
  | ⟨0, _⟩ => show win0_13.index t (0 : Fin 2) * 2000 ≤ (i 0).val ∧ (i 0).val < win0_13.index t (0 : Fin 2) * 2000 + 2000; omega
  | ⟨1, _⟩ => show win0_13.index t (1 : Fin 2) * 128 ≤ (i 1).val ∧ (i 1).val < win0_13.index t (1 : Fin 2) * 128 + 128; omega

theorem cover14 (i : S250000x128.Idx) : ∃ t : Fin cfg0.N, (cfg0.win 14).flush t = true ∧ i ∈ ((cfg0.win 14).blk t).view.set := by
  have hi0 : (i 0).val < 250000 := (i 0).isLt
  have hi1 : (i 1).val < 128 := (i 1).isLt
  obtain ⟨t, ht⟩ := idx_onto ⟨(i 0).val / 2000, by omega⟩
  have ht' : win0_13.index t (0 : Fin 2) = (i 0).val / 2000 := ht
  obtain ⟨-, -, e2, e3, -, -⟩ := idx_moving t
  refine ⟨t, flush0_14 t, ?_⟩
  rw [mem_blk14]
  intro a
  match a with
  | ⟨0, _⟩ => show win0_14.index t (0 : Fin 2) * 2000 ≤ (i 0).val ∧ (i 0).val < win0_14.index t (0 : Fin 2) * 2000 + 2000; omega
  | ⟨1, _⟩ => show win0_14.index t (1 : Fin 2) * 128 ≤ (i 1).val ∧ (i 1).val < win0_14.index t (1 : Fin 2) * 128 + 128; omega

/-- THE ARRAYS after the region: each output array is its one function of the arrays the region finds. -/
theorem final13 (c : Dev nD) : (dats m 0 c).arrAt 13 cfg0.N = G13 m c :=
  (dats m 0 c).arrAt_eq_of_cover 13 (G13 m c) (fun t _ => flushed13_eq m c t) cover13

theorem final14 (c : Dev nD) : (dats m 0 c).arrAt 14 cfg0.N = G14 m c :=
  (dats m 0 c).arrAt_eq_of_cover 14 (G14 m c) (fun t _ => flushed14_eq m c t) cover14

end Cert.EdgeMlp.KernelValue

end
-- ==== Proof.KernelHost.lean ====
/-
  The host lines around the region, as two functions both programs share.

  Before the region the program wraps each column of node addresses once around the node axis, gathers the
  coordinates of each edge's two end nodes, and joins them to the edge's features into one row of 272 inputs
  (`joined`); it also narrows that matrix and the six weight matrices to the kernel's operand format, which on the
  extended reals changes nothing. After the region it multiplies each output by the edge mask spread over the 128
  columns, adds the first output's rows into a zero node array at the first column of addresses and the second
  output's at the second, and takes tanh (`aggregate`). Neither function is opened here: the reference applies the
  very same operations, so the two programs are compared only on what goes into `aggregate`.
-/
import proofs.«160541_j29910152250019_2_alg».proof.Proof.FrameIdeal
import Idealize.ShloMosaic.Lib.StableHlo.Run
import Idealize.ShloMosaic.PureOps.Ideal
import Idealize.ShloMosaic.PureOps.Ideal.Laws

set_option maxRecDepth 16384

noncomputable section

namespace Cert.EdgeMlp.KernelValue

open Cert.KernelIdeal Cert.KernelIdeal.Gen Cert.KernelIdeal.Frm
open Idealize.ShloMosaic Idealize.ShloMosaic.TcCoe Idealize.SL.Sem

variable (m : (ℓ : Loc nD τ sig) → Buf (Elt Ideal) ℓ)

/-- A column of node addresses as both programs read it: a negative address wraps once around the node axis. -/
def wrapIdx (a : (⟨S250000, .i32⟩ : BufTy).Contents (Elt Ideal)) : (⟨S250000x1, .i32⟩ : BufTy).Contents (Elt Ideal) :=
  broadcastInDim S250000x1 ![0] bcast_S250000_S250000x1_0
    (select (cmpi .slt a (broadcastInDim S250000 ![] bcast_S_S250000 (constantI S_ 32 0#32)))
      (addi a (broadcastInDim S250000 ![] bcast_S_S250000 (constantI S_ 32 100000#32))) a)

/-- The joined input matrix: per edge its 16 features, then the coordinates of its two end nodes. -/
def joined (x0 : (⟨S100000x128, .f32⟩ : BufTy).Contents (Elt Ideal)) (x1 : (⟨S250000x16, .f32⟩ : BufTy).Contents (Elt Ideal))
    (x3 x4 : (⟨S250000, .i32⟩ : BufTy).Contents (Elt Ideal)) : (⟨S250000x272, .f32⟩ : BufTy).Contents (Elt Ideal) :=
  concatenate S250000x272 1 [⟨S250000x16, x1⟩,
    ⟨S250000x128, Host.gather gather_S100000x128_S250000x1_S250000x128_1_0_n_n_0_1_1128 x0 (wrapIdx x3)⟩,
    ⟨S250000x128, Host.gather gather_S100000x128_S250000x1_S250000x128_1_0_n_n_0_1_1128 x0 (wrapIdx x4)⟩]
    concatenates_S250000x16_S250000x128_S250000x128_S250000x272_d1

/-- The edge mask spread over the 128 output columns. -/
def maskCols (x2 : (⟨S250000, .f32⟩ : BufTy).Contents (Elt Ideal)) : (⟨S250000x128, .f32⟩ : BufTy).Contents (Elt Ideal) :=
  broadcastInDim S250000x128 ![0, 1] bcast_S250000x1_S250000x128_0_1 (broadcastInDim S250000x1 ![0] bcast_S250000_S250000x1_0 x2)

/-- What both programs do with the two per-edge results: mask each, add each port's rows into a zero node array at
    that port's node addresses, and take tanh. -/
def aggregate (o1 o2 : (⟨S250000x128, .f32⟩ : BufTy).Contents (Elt Ideal)) (x2 : (⟨S250000, .f32⟩ : BufTy).Contents (Elt Ideal))
    (x3 x4 : (⟨S250000, .i32⟩ : BufTy).Contents (Elt Ideal)) : (⟨S100000x128, .f32⟩ : BufTy).Contents (Elt Ideal) :=
  Host.tanh (F := Ideal) (Host.scatterAdd (F := Ideal) scatter_S100000x128_S250000x1_S250000x128_1_0_0_1
    (Host.scatterAdd (F := Ideal) scatter_S100000x128_S250000x1_S250000x128_1_0_0_1
      (broadcastInDim S100000x128 ![] bcast_S_S100000x128 (constant (F := Ideal) S_ .f32 0x00000000#32))
      (wrapIdx x3) (mulf o1 (maskCols x2)))
    (wrapIdx x4) (mulf o2 (maskCols x2)))

/-! ## The arrays the lines before the region write, as the region finds them -/

/-- The joined input (narrowing is the identity). -/
theorem V_main_v15 (c : Dev nD) : (V m c main_v15 : S250000x272.Idx → EReal)
    = joined (m ((c : Thread nD τ).loc main_arg0)) (m ((c : Thread nD τ).loc main_arg1)) (m ((c : Thread nD τ).loc main_arg3)) (m ((c : Thread nD τ).loc main_arg4)) := by
  show StableHlo.after hostOps0 (fun b => m (c, b)) (Proc.devRef .tc main_v15) = _
  after_results
  rfl

/-- The six weight matrices: each is its argument (narrowing is the identity). -/
theorem V_main_v16 (c : Dev nD) : (V m c main_v16 : S272x256.Idx → EReal) = m ((c : Thread nD τ).loc main_arg5) := by
  show StableHlo.after hostOps0 (fun b => m (c, b)) (Proc.devRef .tc main_v16) = _
  after_results
  rfl
theorem V_main_v17 (c : Dev nD) : (V m c main_v17 : S256x256.Idx → EReal) = m ((c : Thread nD τ).loc main_arg7) := by
  show StableHlo.after hostOps0 (fun b => m (c, b)) (Proc.devRef .tc main_v17) = _
  after_results
  rfl
theorem V_main_v18 (c : Dev nD) : (V m c main_v18 : S256x128.Idx → EReal) = m ((c : Thread nD τ).loc main_arg9) := by
  show StableHlo.after hostOps0 (fun b => m (c, b)) (Proc.devRef .tc main_v18) = _
  after_results
  rfl
theorem V_main_v19 (c : Dev nD) : (V m c main_v19 : S272x256.Idx → EReal) = m ((c : Thread nD τ).loc main_arg11) := by
  show StableHlo.after hostOps0 (fun b => m (c, b)) (Proc.devRef .tc main_v19) = _
  after_results
  rfl
theorem V_main_v20 (c : Dev nD) : (V m c main_v20 : S256x256.Idx → EReal) = m ((c : Thread nD τ).loc main_arg13) := by
  show StableHlo.after hostOps0 (fun b => m (c, b)) (Proc.devRef .tc main_v20) = _
  after_results
  rfl
theorem V_main_v21 (c : Dev nD) : (V m c main_v21 : S256x128.Idx → EReal) = m ((c : Thread nD τ).loc main_arg15) := by
  show StableHlo.after hostOps0 (fun b => m (c, b)) (Proc.devRef .tc main_v21) = _
  after_results
  rfl

/-! ## The lines after the region -/

/-- The lines after the region, run from ANY contents W of the unscoped buffers: the result is `aggregate` of the two
    output arrays, the mask and the two address columns as W holds them (widening the outputs is the identity). -/
theorem tail_of (W : Valuation τ sig (Elt Ideal)) :
    (StableHlo.after hostOps1 W (Proc.devRef .tc main_v45) : S100000x128.Idx → EReal)
      = aggregate (W (Proc.devRef .tc main_v22_0)) (W (Proc.devRef .tc main_v22_1))
          (W (Proc.devRef .tc main_arg2)) (W (Proc.devRef .tc main_arg3)) (W (Proc.devRef .tc main_arg4)) := by
  after_results_simp
  rfl

/-- The program's result after the run: `aggregate` of the two output arrays as the region leaves them and of the
    mask and address arguments as launched. -/
theorem result_eq (c : Dev nD) :
    (Pipeline.afterTail₀ cfgs (dats m) 0 (V0 m) [hostOps1] c main_v45 : S100000x128.Idx → EReal)
      = aggregate ((dats m 0 c).arrAt 13 cfg0.N) ((dats m 0 c).arrAt 14 cfg0.N)
          (m ((c : Thread nD τ).loc main_arg2)) (m ((c : Thread nD τ).loc main_arg3)) (m ((c : Thread nD τ).loc main_arg4)) := by
  unfold Pipeline.afterTail₀
  refine (tail_of (Pipeline.withArrays spec0 c (V0 m c) fun w => (dats m 0 c).arrAt w cfg0.N)).trans ?_
  have h13 : Pipeline.withArrays spec0 c (V0 m c) (fun w => (dats m 0 c).arrAt w cfg0.N) (Proc.devRef .tc main_v22_0)
      = (dats m 0 c).arrAt 13 cfg0.N := Pipeline.withArrays_arr spec0 launch0.win.arr_inj c _ _ 13
  have h14 : Pipeline.withArrays spec0 c (V0 m c) (fun w => (dats m 0 c).arrAt w cfg0.N) (Proc.devRef .tc main_v22_1)
      = (dats m 0 c).arrAt 14 cfg0.N := Pipeline.withArrays_arr spec0 launch0.win.arr_inj c _ _ 14
  have h2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by decide)).trans (V_main_arg2 m c)
  have h3 : Pipeline.withArrays spec0 c (V0 m c) (fun w => (dats m 0 c).arrAt w cfg0.N) (Proc.devRef .tc main_arg3)
      = m ((c : Thread nD τ).loc main_arg3) :=
    (Pipeline.withArrays_of_ne spec0 c (V0 m c) _ main_arg3 (by decide)).trans (V_main_arg3 m c)
  have h4 : Pipeline.withArrays spec0 c (V0 m c) (fun w => (dats m 0 c).arrAt w cfg0.N) (Proc.devRef .tc main_arg4)
      = m ((c : Thread nD τ).loc main_arg4) :=
    (Pipeline.withArrays_of_ne spec0 c (V0 m c) _ main_arg4 (by decide)).trans (V_main_arg4 m c)
  rw [h13, h14, h2, h3, h4]

end Cert.EdgeMlp.KernelValue

end
-- ==== Proof.KernelValue.lean ====
/-
  The kernel program's result as one function of its arguments.

  The run of the program ends with its result buffer at `aggregate` of the two output arrays (the lines after the
  region), each output array is `portArray` of the joined input and one port's weights as the region finds them (the
  blocks cover the arrays), and the region finds the joined input and the weights at their functions of the arguments
  (the lines before the region). Together: the result is `result` of the seventeen arguments, and the arguments end
  as launched.
-/
import proofs.«160541_j29910152250019_2_alg».proof.Proof.FrameIdeal
import proofs.«160541_j29910152250019_2_alg».proof.Proof.KernelArrays
import proofs.«160541_j29910152250019_2_alg».proof.Proof.KernelHost

set_option maxRecDepth 16384

noncomputable section

namespace Cert.EdgeMlp.KernelValue

open Cert.KernelIdeal Cert.KernelIdeal.Gen Cert.KernelIdeal.Frm
open Idealize.ShloMosaic Idealize.ShloMosaic.TcCoe Idealize.SL.Sem

/-- Both programs' result: the edge network of each port on every row of the joined input, aggregated over the nodes. -/
def result (x0 : (⟨S100000x128, .f32⟩ : BufTy).Contents (Elt Ideal)) (x1 : (⟨S250000x16, .f32⟩ : BufTy).Contents (Elt Ideal))
    (x2 : (⟨S250000, .f32⟩ : BufTy).Contents (Elt Ideal)) (x3 x4 : (⟨S250000, .i32⟩ : BufTy).Contents (Elt Ideal))
    (x5 : (⟨S272x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x128, .f32⟩ : BufTy).Contents (Elt Ideal)) (x10 : (⟨S128, .f32⟩ : BufTy).Contents (Elt Ideal))
    (x11 : (⟨S272x256, .f32⟩ : BufTy).Contents (Elt Ideal)) (x12 : (⟨S256, .f32⟩ : BufTy).Contents (Elt Ideal))
    (x13 : (⟨S256x256, .f32⟩ : BufTy).Contents (Elt Ideal)) (x14 : (⟨S256, .f32⟩ : BufTy).Contents (Elt Ideal))
    (x15 : (⟨S256x128, .f32⟩ : BufTy).Contents (Elt Ideal)) (x16 : (⟨S128, .f32⟩ : BufTy).Contents (Elt Ideal)) :
    (⟨S100000x128, .f32⟩ : BufTy).Contents (Elt Ideal) :=
  aggregate (portArray (joined x0 x1 x3 x4) x5 x6 x7 x8 x9 x10) (portArray (joined x0 x1 x3 x4) x11 x12 x13 x14 x15 x16) x2 x3 x4

variable (m : (ℓ : Loc nD τ sig) → Buf (Elt Ideal) ℓ) (ρ : Dev nD → PrngReg)

/-- The result buffer after the run is `result` of the arguments as launched. -/
theorem result_value (c : Dev nD) :
    (Pipeline.afterTail₀ cfgs (dats m) 0 (V0 m) [hostOps1] c main_v45 : S100000x128.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) := by
  rw [result_eq, final13, final14]
  unfold G13 G14 result
  rw [V_main_v15, V_main_v16, V_main_v17, V_main_v18, V_main_v19, V_main_v20, V_main_v21,
    V_main_arg6, V_main_arg8, V_main_arg10, V_main_arg12, V_main_arg14, V_main_arg16]

/-- The run of the kernel program at the extended reals: every weakly fair execution ends with the result buffer at
    `result` of the arguments and the arguments as launched. -/
theorem run_value : θ_run defs (onTc (τ := τ) (main (F := Ideal))) ⟨m, fun _ => 0, ρ⟩ (fun r => ∀ c : Dev nD,
      r.2.mem ((c.tc : Thread nD τ).loc main_v45)
        = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c).1.trans (result_value m c), (h c).2⟩) (run_result m ρ)

end Cert.EdgeMlp.KernelValue

end
-- ==== Proof.RefRows.lean ====
/-
  The reference's two network results read row by row.

  The reference applies the edge network to all 250000 edges at once: for each port three host matrix products, each
  with its bias vector broadcast over the rows, and a maximum with the broadcast zero constant after the first two.
  Row e of either result is `mlp` of row e of the joined input matrix (the edge's features and the coordinates of its
  two end nodes) with that port's weights and biases — the same row function the kernel's blocks compute. The joined
  input matrix itself is never opened here: it enters as one array.
-/
import proofs.«160541_j29910152250019_2_alg».proof.Proof.Gen.ReferenceIdeal.Read
import proofs.«160541_j29910152250019_2_alg».proof.Proof.MlpSpec
import proofs.«160541_j29910152250019_2_alg».proof.Proof.LibHostDenseRows

noncomputable section

namespace Cert.EdgeMlp.Ref

open Idealize.ShloMosaic Idealize.ShloMosaic.ValueIdx Cert.LibDenseRows Cert.LibHostDenseRows Cert.EdgeMlp
open Cert.ReferenceIdeal Cert.ReferenceIdeal.Gen Cert.ReferenceIdeal.Read

/-- The printed product records are the plain ones. -/
theorem dot1_plain : dot_S250000x272_S272x256_S250000x256_1_0_0_1_n_n = DotDims.plain 250000 272 256 := rfl
theorem dot2_plain : dot_S250000x256_S256x256_S250000x256_1_0_0_1_n_n = DotDims.plain 250000 256 256 := rfl
theorem dot3_plain : dot_S250000x256_S256x128_S250000x128_1_0_0_1_n_n = DotDims.plain 250000 256 128 := rfl

/-- The network on the host, as one function of the joined input matrix and one port's weights and biases: the
    operations of the reference's stages, in order. -/
def hostMlp (xin : FVec Ideal S250000x272 .f32) (w1 : FVec Ideal S272x256 .f32) (b1 : FVec Ideal S256 .f32)
    (w2 : FVec Ideal S256x256 .f32) (b2 : FVec Ideal S256 .f32) (w3 : FVec Ideal S256x128 .f32) (b3 : FVec Ideal S128 .f32) :
    FVec Ideal S250000x128 .f32 :=
  addf (Host.dotGeneral (F := Ideal) dot_S250000x256_S256x128_S250000x128_1_0_0_1_n_n none
      (maximumf (addf (Host.dotGeneral (F := Ideal) dot_S250000x256_S256x256_S250000x256_1_0_0_1_n_n none
          (maximumf (addf (Host.dotGeneral (F := Ideal) dot_S250000x272_S272x256_S250000x256_1_0_0_1_n_n none xin w1)
              (broadcastInDim S250000x256 ![0, 1] bcast_S1x256_S250000x256_0_1 (broadcastInDim S1x256 ![1] bcast_S256_S1x256_1 b1)))
            (broadcastInDim S250000x256 ![] bcast_S_S250000x256 (constant (F := Ideal) S_ .f32 0x00000000#32))) w2)
          (broadcastInDim S250000x256 ![0, 1] bcast_S1x256_S250000x256_0_1 (broadcastInDim S1x256 ![1] bcast_S256_S1x256_1 b2)))
        (broadcastInDim S250000x256 ![] bcast_S_S250000x256 (constant (F := Ideal) S_ .f32 0x00000000#32))) w3)
    (broadcastInDim S250000x128 ![0, 1] bcast_S1x128_S250000x128_0_1 (broadcastInDim S1x128 ![1] bcast_S128_S1x128_1 b3))

/-- Row e of the host network is `mlp` of row e of the input. -/
theorem hostMlp_rows (xin : FVec Ideal S250000x272 .f32) (w1 : FVec Ideal S272x256 .f32) (b1 : FVec Ideal S256 .f32)
    (w2 : FVec Ideal S256x256 .f32) (b2 : FVec Ideal S256 .f32) (w3 : FVec Ideal S256x128 .f32) (b3 : FVec Ideal S128 .f32)
    (e : Fin 250000) :
    rows (hostMlp xin w1 b1 w2 b2 w3 b3) e = mlp (rows w1) (vec b1) (rows w2) (vec b2) (rows w3) (vec b3) (rows xin e) := by
  unfold hostMlp mlp
  rw [rows_hostDense _ dot3_plain, rows_max_zero_const, rows_hostDense _ dot2_plain, rows_max_zero_const,
    rows_hostDense _ dot1_plain]

/-- The first port's stage of the reference is the host network of the joined input and the first port's weights. -/
theorem port1_eq (x0 : FVec Ideal S100000x128 .f32) (x1 : FVec Ideal S250000x16 .f32) (x3 x4 : IVec S250000 32)
    (x5 : FVec Ideal S272x256 .f32) (x6 : FVec Ideal S256 .f32) (x7 : FVec Ideal S256x256 .f32) (x8 : FVec Ideal S256 .f32)
    (x9 : FVec Ideal S256x128 .f32) (x10 : FVec Ideal S128 .f32) :
    val_main_v30 (F := Ideal) x0 x1 x3 x4 x5 x6 x7 x8 x9 x10
      = hostMlp (val_main_v14 (F := Ideal) x0 x1 x3 x4) x5 x6 x7 x8 x9 x10 := rfl

/-- The second port's stage likewise, with the second port's weights. -/
theorem port2_eq (x0 : FVec Ideal S100000x128 .f32) (x1 : FVec Ideal S250000x16 .f32) (x3 x4 : IVec S250000 32)
    (x11 : FVec Ideal S272x256 .f32) (x12 : FVec Ideal S256 .f32) (x13 : FVec Ideal S256x256 .f32) (x14 : FVec Ideal S256 .f32)
    (x15 : FVec Ideal S256x128 .f32) (x16 : FVec Ideal S128 .f32) :
    val_main_v53 (F := Ideal) x0 x1 x3 x4 x11 x12 x13 x14 x15 x16
      = hostMlp (val_main_v14 (F := Ideal) x0 x1 x3 x4) x11 x12 x13 x14 x15 x16 := rfl

end Cert.EdgeMlp.Ref

end
-- ==== Proof.lean ====
/-
  The kernel runs the edge network block by block on the accelerator; the reference runs it on all edges at once on the
  host. Both are the same function of the seventeen arguments.

  Per edge, both programs join the edge's 16 features with the 128 coordinates of each of its two end nodes (gathered at
  the two address columns, a negative address wrapped once around the node axis) into a row of 272 inputs; apply to that
  row two networks, one per port, each two hidden ReLU layers of width 256 and a linear output layer of width 128 with
  weights and biases of its own; multiply both results by the edge's mask; add the first port's result into the output row
  of the first end node and the second port's into the second end node's, starting from zero; and take tanh.
  The kernel differs in two ways only. It narrows its operands and results to a shorter float format, which on the
  extended reals is the identity. And it computes the networks 2000 edges at a time, at 125 grid points; but a row of a
  matrix product depends on that row of the left operand only, so row e of either output is the network of row e of the
  joined input, whichever block e falls in, and the 125 blocks tile the 250000 edges. Every sum has the same terms in both
  programs, so no law of the extended reals beyond that is used and no input needs to be finite.

  The parts: the kernel program's frame run around its one region (Proof/FrameBits.lean at the word level,
  Proof/FrameIdeal.lean at the extended reals); the body's two stored blocks read row by row (Proof/KernelRows.lean); the
  blocks assembled into the two output arrays (Proof/KernelArrays.lean); the host lines before and after the region
  (Proof/KernelHost.lean) and the program's result (Proof/KernelValue.lean); the reference's two networks read row by row
  (Proof/RefRows.lean) over its generated run. Here: the reference's result is the same `result`, and the five claims.
-/
import proofs.«160541_j29910152250019_2_alg».proof.Defs
import proofs.«160541_j29910152250019_2_alg».proof.Proof.Gen.Kernel
import proofs.«160541_j29910152250019_2_alg».proof.Proof.Gen.KernelIdeal
import proofs.«160541_j29910152250019_2_alg».proof.Proof.Gen.ReferenceIdeal
import proofs.«160541_j29910152250019_2_alg».proof.Proof.Gen.Pre_finite_inputs
import proofs.«160541_j29910152250019_2_alg».proof.Proof.Gen.ReferenceIdeal.Run
import proofs.«160541_j29910152250019_2_alg».proof.Proof.Gen.ReferenceIdeal.Read
import proofs.«160541_j29910152250019_2_alg».proof.Proof.FrameBits
import proofs.«160541_j29910152250019_2_alg».proof.Proof.FrameIdeal
import proofs.«160541_j29910152250019_2_alg».proof.Proof.KernelValue
import proofs.«160541_j29910152250019_2_alg».proof.Proof.RefRows
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.LibDenseRows Cert.EdgeMlp Cert.EdgeMlp.KernelValue

/-! ## The reference's result is the kernel program's function -/

/-- The network on the host over all edges is, row by row, the network on a row: the array both programs' outputs hold. -/
theorem hostMlp_eq (X : FVec Ideal Cert.ReferenceIdeal.S250000x272 .f32) (w1 : FVec Ideal Cert.ReferenceIdeal.S272x256 .f32)
    (b1 : FVec Ideal Cert.ReferenceIdeal.S256 .f32) (w2 : FVec Ideal Cert.ReferenceIdeal.S256x256 .f32)
    (b2 : FVec Ideal Cert.ReferenceIdeal.S256 .f32) (w3 : FVec Ideal Cert.ReferenceIdeal.S256x128 .f32)
    (b3 : FVec Ideal Cert.ReferenceIdeal.S128 .f32) :
    Cert.EdgeMlp.Ref.hostMlp X w1 b1 w2 b2 w3 b3 = portArray X w1 b1 w2 b2 w3 b3 := by
  funext i
  obtain ⟨e, q, rfl⟩ : ∃ (e : Fin 250000) (q : Fin 128), i = ix2 e q := ⟨i 0, i 1, eq_ix2 i⟩
  exact congrFun (Cert.EdgeMlp.Ref.hostMlp_rows X w1 b1 w2 b2 w3 b3 e) q

/-- The reference's joined input is the kernel program's: the same lines before the networks. -/
theorem ref_joined (x0 : FVec Ideal Cert.ReferenceIdeal.S100000x128 .f32) (x1 : FVec Ideal Cert.ReferenceIdeal.S250000x16 .f32)
    (x3 x4 : IVec Cert.ReferenceIdeal.S250000 32) :
    Cert.ReferenceIdeal.Read.val_main_v14 (F := Ideal) x0 x1 x3 x4 = joined x0 x1 x3 x4 := rfl

/-- The reference's result is `aggregate` of its two network stages: the same lines after the networks. -/
theorem ref_aggregate (x0 : FVec Ideal Cert.ReferenceIdeal.S100000x128 .f32) (x1 : FVec Ideal Cert.ReferenceIdeal.S250000x16 .f32)
    (x2 : FVec Ideal Cert.ReferenceIdeal.S250000 .f32) (x3 x4 : IVec Cert.ReferenceIdeal.S250000 32)
    (x5 : FVec Ideal Cert.ReferenceIdeal.S272x256 .f32) (x6 : FVec Ideal Cert.ReferenceIdeal.S256 .f32)
    (x7 : FVec Ideal Cert.ReferenceIdeal.S256x256 .f32) (x8 : FVec Ideal Cert.ReferenceIdeal.S256 .f32)
    (x9 : FVec Ideal Cert.ReferenceIdeal.S256x128 .f32) (x10 : FVec Ideal Cert.ReferenceIdeal.S128 .f32)
    (x11 : FVec Ideal Cert.ReferenceIdeal.S272x256 .f32) (x12 : FVec Ideal Cert.ReferenceIdeal.S256 .f32)
    (x13 : FVec Ideal Cert.ReferenceIdeal.S256x256 .f32) (x14 : FVec Ideal Cert.ReferenceIdeal.S256 .f32)
    (x15 : FVec Ideal Cert.ReferenceIdeal.S256x128 .f32) (x16 : FVec Ideal Cert.ReferenceIdeal.S128 .f32) :
    Cert.ReferenceIdeal.Read.val_main_v63 (F := Ideal) x0 x1 x2 x3 x4 x5 x6 x7 x8 x9 x10 x11 x12 x13 x14 x15 x16
      = aggregate (Cert.ReferenceIdeal.Read.val_main_v30 (F := Ideal) x0 x1 x3 x4 x5 x6 x7 x8 x9 x10)
          (Cert.ReferenceIdeal.Read.val_main_v53 (F := Ideal) x0 x1 x3 x4 x11 x12 x13 x14 x15 x16) x2 x3 x4 := rfl

/-- The reference's result is `result` of the arguments. -/
theorem ref_result (x0 : FVec Ideal Cert.ReferenceIdeal.S100000x128 .f32) (x1 : FVec Ideal Cert.ReferenceIdeal.S250000x16 .f32)
    (x2 : FVec Ideal Cert.ReferenceIdeal.S250000 .f32) (x3 x4 : IVec Cert.ReferenceIdeal.S250000 32)
    (x5 : FVec Ideal Cert.ReferenceIdeal.S272x256 .f32) (x6 : FVec Ideal Cert.ReferenceIdeal.S256 .f32)
    (x7 : FVec Ideal Cert.ReferenceIdeal.S256x256 .f32) (x8 : FVec Ideal Cert.ReferenceIdeal.S256 .f32)
    (x9 : FVec Ideal Cert.ReferenceIdeal.S256x128 .f32) (x10 : FVec Ideal Cert.ReferenceIdeal.S128 .f32)
    (x11 : FVec Ideal Cert.ReferenceIdeal.S272x256 .f32) (x12 : FVec Ideal Cert.ReferenceIdeal.S256 .f32)
    (x13 : FVec Ideal Cert.ReferenceIdeal.S256x256 .f32) (x14 : FVec Ideal Cert.ReferenceIdeal.S256 .f32)
    (x15 : FVec Ideal Cert.ReferenceIdeal.S256x128 .f32) (x16 : FVec Ideal Cert.ReferenceIdeal.S128 .f32) :
    Cert.ReferenceIdeal.Read.val_main_v63 (F := Ideal) x0 x1 x2 x3 x4 x5 x6 x7 x8 x9 x10 x11 x12 x13 x14 x15 x16
      = result x0 x1 x2 x3 x4 x5 x6 x7 x8 x9 x10 x11 x12 x13 x14 x15 x16 := by
  rw [ref_aggregate, Cert.EdgeMlp.Ref.port1_eq, Cert.EdgeMlp.Ref.port2_eq, hostMlp_eq, hostMlp_eq, ref_joined]
  rfl

/-! ## The claims -/

theorem frame_k : Cert.frame_Kernel := fun m ρ _ => Cert.Kernel.Frm.frame m ρ
theorem frame_ki : Cert.frame_KernelIdeal := fun m ρ _ => Cert.KernelIdeal.Frm.frame m ρ
/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at `result` of arguments that agree. -/
theorem algebraic : Cert.algebraic_KernelIdeal_ReferenceIdeal := by
  intro m ρ m' ρ' _ hagree
  refine ⟨_, Cert.EdgeMlp.KernelValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16⟩ := hagree c
  rw [Cert.ReferenceIdeal.Read.val_main_v63_eq, ref_result, a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
